-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S30 : Shape := ⟨1, ![30]⟩
abbrev S_ : Shape := ⟨0, ![]⟩
abbrev S2048x128 : Shape := ⟨2, ![2048, 128]⟩
abbrev S4096x30 : Shape := ⟨2, ![4096, 30]⟩
abbrev S512x2048 : Shape := ⟨2, ![512, 2048]⟩
abbrev S512x30 : Shape := ⟨2, ![512, 30]⟩
abbrev S512x128 : Shape := ⟨2, ![512, 128]⟩
abbrev S512x1 : Shape := ⟨2, ![512, 1]⟩
abbrev S30x1 : Shape := ⟨2, ![30, 1]⟩

abbrev nBuf : Space → Nat
  | .hbm => 12
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S30, .i32⟩
  | .hbm, ⟨2, _⟩ => ⟨S30, .i1⟩
  | .hbm, ⟨3, _⟩ => ⟨S_, .bf16⟩
  | .hbm, ⟨4, _⟩ => ⟨S2048x128, .bf16⟩
  | .hbm, ⟨5, _⟩ => ⟨S4096x30, .f32⟩
  | .hbm, ⟨6, _⟩ => ⟨S_, .i32⟩
  | .hbm, ⟨7, _⟩ => ⟨S30, .i32⟩
  | .hbm, ⟨8, _⟩ => ⟨S30, .i32⟩
  | .hbm, ⟨9, _⟩ => ⟨S30, .i32⟩
  | .hbm, ⟨10, _⟩ => ⟨S30x1, .i32⟩
  | .hbm, ⟨11, _⟩ => ⟨S4096x30, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S512x30, .f32⟩
  | .local _ .vmem, ⟨4, _⟩ => ⟨S512x30, .f32⟩
  | .local _ .vmem, ⟨5, _⟩ => ⟨S512x30, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32_130 : BitVec 32 := 7#32
  let v378 : BitVec 1 := Scalar.cmpi .eq arg1 c7_i32_130
  let v379 : BitVec 32 := Scalar.extui v378
  let c0_i32_131 : BitVec 32 := 0#32
  let v380 : BitVec 1 := Scalar.cmpi .ne v379 c0_i32_131
  v380

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S2048x128 : S_.BroadcastsInDim S2048x128 (![] : Fin 0 → Fin S2048x128.rank)
  inb_S512x30_S512x30_0_0 : ∀ a, (![0, 0] : Fin 2 → Nat) a + S512x30.size a ≤ S512x30.size a
  h_S512x30 : 0 < S512x30.numel
  shapeCasts_S512x30_S512x30 : S512x30.ShapeCasts S512x30
  inb_S512x2048_S512x2048_0_0 : ∀ a, (![0, 0] : Fin 2 → Nat) a + S512x2048.size a ≤ S512x2048.size a
  h_S512x2048 : 0 < S512x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  bitsLt_bf16_f32 : FTy.bits .bf16 < FTy.bits .f32
  slices_S512x128_o0_0_S512x1 : S512x128.Slices ![0, 0] S512x1
  inb_S512x30_S512x1_0_0 : ∀ a, (![0, 0] : Fin 2 → Nat) a + S512x1.size a ≤ S512x30.size a
  h_S512x1 : 0 < S512x1.numel
  shapeCasts_S512x1_S512x1 : S512x1.ShapeCasts S512x1
  inb_S512x30_S512x1_0_1 : ∀ a, (![0, 1] : Fin 2 → Nat) a + S512x1.size a ≤ S512x30.size a
  inb_S512x30_S512x1_0_2 : ∀ a, (![0, 2] : Fin 2 → Nat) a + S512x1.size a ≤ S512x30.size a
  inb_S512x30_S512x1_0_3 : ∀ a, (![0, 3] : Fin 2 → Nat) a + S512x1.size a ≤ S512x30.size a
  inb_S512x30_S512x1_0_4 : ∀ a, (![0, 4] : Fin 2 → Nat) a + S512x1.size a ≤ S512x30.size a
  inb_S512x30_S512x1_0_5 : ∀ a, (![0, 5] : Fin 2 → Nat) a + S512x1.size a ≤ S512x30.size a
  inb_S512x30_S512x1_0_6 : ∀ a, (![0, 6] : Fin 2 → Nat) a + S512x1.size a ≤ S512x30.size a
  inb_S512x30_S512x1_0_7 : ∀ a, (![0, 7] : Fin 2 → Nat) a + S512x1.size a ≤ S512x30.size a
  inb_S512x30_S512x1_0_8 : ∀ a, (![0, 8] : Fin 2 → Nat) a + S512x1.size a ≤ S512x30.size a
  inb_S512x30_S512x1_0_9 : ∀ a, (![0, 9] : Fin 2 → Nat) a + S512x1.size a ≤ S512x30.size a
  inb_S512x30_S512x1_0_10 : ∀ a, (![0, 10] : Fin 2 → Nat) a + S512x1.size a ≤ S512x30.size a
  inb_S512x30_S512x1_0_11 : ∀ a, (![0, 11] : Fin 2 → Nat) a + S512x1.size a ≤ S512x30.size a
  inb_S512x30_S512x1_0_12 : ∀ a, (![0, 12] : Fin 2 → Nat) a + S512x1.size a ≤ S512x30.size a
  inb_S512x30_S512x1_0_13 : ∀ a, (![0, 13] : Fin 2 → Nat) a + S512x1.size a ≤ S512x30.size a
  inb_S512x30_S512x1_0_14 : ∀ a, (![0, 14] : Fin 2 → Nat) a + S512x1.size a ≤ S512x30.size a
  inb_S512x30_S512x1_0_15 : ∀ a, (![0, 15] : Fin 2 → Nat) a + S512x1.size a ≤ S512x30.size a
  inb_S512x30_S512x1_0_16 : ∀ a, (![0, 16] : Fin 2 → Nat) a + S512x1.size a ≤ S512x30.size a
  inb_S512x30_S512x1_0_17 : ∀ a, (![0, 17] : Fin 2 → Nat) a + S512x1.size a ≤ S512x30.size a
  inb_S512x30_S512x1_0_18 : ∀ a, (![0, 18] : Fin 2 → Nat) a + S512x1.size a ≤ S512x30.size a
  inb_S512x30_S512x1_0_19 : ∀ a, (![0, 19] : Fin 2 → Nat) a + S512x1.size a ≤ S512x30.size a
  inb_S512x30_S512x1_0_20 : ∀ a, (![0, 20] : Fin 2 → Nat) a + S512x1.size a ≤ S512x30.size a
  inb_S512x30_S512x1_0_21 : ∀ a, (![0, 21] : Fin 2 → Nat) a + S512x1.size a ≤ S512x30.size a
  inb_S512x30_S512x1_0_22 : ∀ a, (![0, 22] : Fin 2 → Nat) a + S512x1.size a ≤ S512x30.size a
  inb_S512x30_S512x1_0_23 : ∀ a, (![0, 23] : Fin 2 → Nat) a + S512x1.size a ≤ S512x30.size a
  inb_S512x30_S512x1_0_24 : ∀ a, (![0, 24] : Fin 2 → Nat) a + S512x1.size a ≤ S512x30.size a
  inb_S512x30_S512x1_0_25 : ∀ a, (![0, 25] : Fin 2 → Nat) a + S512x1.size a ≤ S512x30.size a
  inb_S512x30_S512x1_0_26 : ∀ a, (![0, 26] : Fin 2 → Nat) a + S512x1.size a ≤ S512x30.size a
  inb_S512x30_S512x1_0_27 : ∀ a, (![0, 27] : Fin 2 → Nat) a + S512x1.size a ≤ S512x30.size a
  inb_S512x30_S512x1_0_28 : ∀ a, (![0, 28] : Fin 2 → Nat) a + S512x1.size a ≤ S512x30.size a
  inb_S512x30_S512x1_0_29 : ∀ a, (![0, 29] : Fin 2 → Nat) a + S512x1.size a ≤ S512x30.size a
  bcast_S_S30 : S_.BroadcastsInDim S30 (![] : Fin 0 → Fin S30.rank)
  bcast_S30_S30x1_0 : S30.BroadcastsInDim S30x1 (![0] : Fin 1 → Fin S30x1.rank)
  dot_S512x2048_S2048x128_S512x128_1_0_0_1_n_n_wf : DotDims.WF S512x2048 S2048x128 S512x128 [1] [0] [0] [1] [] []
  gather_S4096x30_S30x1_S4096x30_0_1_n_n_1_1_40961_wf : GatherDims.WF S4096x30 S30x1 S4096x30 [0] [1] [] [1] [] 1 ![4096, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x16384.size a
  hwx0_0 : ∀ i : grid0.Coords, EltTy.bits .f32 = 32 ∨ (Rect.block (s := S4096x16384) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x30.size a ≤ S4096x30.size a
  hwx0_2 : ∀ i : grid0.Coords, EltTy.bits .f32 = 32 ∨ (Rect.block (s := S4096x30) S512x30.size (cc0_transform_2 i) (hinb0_2 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def gather_S4096x30_S30x1_S4096x30_0_1_n_n_1_1_40961 : GatherDims S4096x30 S30x1 S4096x30 where
  offsetDims := [0]
  collapsedSliceDims := [1]
  operandBatchingDims := []
  startIndicesBatchingDims := []
  startIndexMap := [1]
  indexVectorDim := 1
  sliceSizes := ![4096, 1]
  wf := gather_S4096x30_S30x1_S4096x30_0_1_n_n_1_1_40961_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x16384 : Shape := ⟨2, ![4096, 16384]⟩
abbrev S30 : Shape := ⟨1, ![30]⟩
abbrev S_ : Shape := ⟨0, ![]⟩
abbrev S4096 : Shape := ⟨1, ![4096]⟩
abbrev S4096x1 : Shape := ⟨2, ![4096, 1]⟩
abbrev S4096x30 : Shape := ⟨2, ![4096, 30]⟩
abbrev S4096x16384x1 : Shape := ⟨3, ![4096, 16384, 1]⟩
abbrev S4096x16384x2 : Shape := ⟨3, ![4096, 16384, 2]⟩
abbrev S30x1 : Shape := ⟨2, ![30, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S30, .i32⟩
  | .hbm, ⟨2, _⟩ => ⟨S30, .i1⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S_, .i32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S4096x16384, .i32⟩
  | .hbm, ⟨19, _⟩ => ⟨S_, .i32⟩
  | .hbm, ⟨20, _⟩ => ⟨S4096x16384, .i32⟩
  | .hbm, ⟨21, _⟩ => ⟨S4096x16384, .i32⟩
  | .hbm, ⟨22, _⟩ => ⟨S4096, .i32⟩
  | .hbm, ⟨23, _⟩ => ⟨S4096x1, .i32⟩
  | .hbm, ⟨24, _⟩ => ⟨S_, .f32⟩
  | .hbm, ⟨25, _⟩ => ⟨S4096x30, .f32⟩
  | .hbm, ⟨26, _⟩ => ⟨S_, .i32⟩
  | .hbm, ⟨27, _⟩ => ⟨S4096x1, .i32⟩
  | .hbm, ⟨28, _⟩ => ⟨S4096x1, .i1⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S4096x1, .i32⟩
  | .hbm, ⟨33, _⟩ => ⟨S_, .i32⟩
  | .hbm, ⟨34, _⟩ => ⟨S4096x16384, .i32⟩
  | .hbm, ⟨35, _⟩ => ⟨S4096x16384, .i1⟩
  | .hbm, ⟨36, _⟩ => ⟨S_, .i32⟩
  | .hbm, ⟨37, _⟩ => ⟨S4096x16384, .i32⟩
  | .hbm, ⟨38, _⟩ => ⟨S4096x16384, .i32⟩
  | .hbm, ⟨39, _⟩ => ⟨S4096x16384, .i32⟩
  | .hbm, ⟨40, _⟩ => ⟨S4096x16384, .i32⟩
  | .hbm, ⟨41, _⟩ => ⟨S4096x16384x1, .i32⟩
  | .hbm, ⟨42, _⟩ => ⟨S4096x16384x1, .i32⟩
  | .hbm, ⟨43, _⟩ => ⟨S4096x16384x2, .i32⟩
  | .hbm, ⟨44, _⟩ => ⟨S_, .f32⟩
  | .hbm, ⟨45, _⟩ => ⟨S4096x16384, .f32⟩
  | .hbm, ⟨46, _⟩ => ⟨S4096x30, .f32⟩
  | .hbm, ⟨47, _⟩ => ⟨S_, .i32⟩
  | .hbm, ⟨48, _⟩ => ⟨S30, .i32⟩
  | .hbm, ⟨49, _⟩ => ⟨S30, .i32⟩
  | .hbm, ⟨50, _⟩ => ⟨S30, .i32⟩
  | .hbm, ⟨51, _⟩ => ⟨S30x1, .i32⟩
  | .hbm, ⟨52, _⟩ => ⟨S4096x30, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_c_3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_c_7 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_8 : Ref sig .tc := ⟨.hbm, 33, rfl⟩
abbrev main_v17 : Ref sig .tc := ⟨.hbm, 34, rfl⟩
abbrev main_v18 : Ref sig .tc := ⟨.hbm, 35, rfl⟩
abbrev main_c_9 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_v27 : Ref sig .tc := ⟨.hbm, 46, rfl⟩
abbrev main_c_11 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  bcast_S4096_S4096x1_0 : S4096.BroadcastsInDim S4096x1 (![0] : Fin 1 → Fin S4096x1.rank)
  bcast_S_S4096x30 : S_.BroadcastsInDim S4096x30 (![] : Fin 0 → Fin S4096x30.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  bcast_S4096x16384_S4096x16384x1_0_1 : S4096x16384.BroadcastsInDim S4096x16384x1 (![0, 1] : Fin 2 → Fin S4096x16384x1.rank)
  concatenates_S4096x16384x1_S4096x16384x1_S4096x16384x2_d2 : Shape.Concatenates [S4096x16384x1, S4096x16384x1] S4096x16384x2 2
  bcast_S_S30 : S_.BroadcastsInDim S30 (![] : Fin 0 → Fin S30.rank)
  bcast_S30_S30x1_0 : S30.BroadcastsInDim S30x1 (![0] : Fin 1 → Fin S30x1.rank)
  scatter_S4096x30_S4096x16384x2_S4096x16384_n_01_01_2_wf : ScatterDims.WF S4096x30 S4096x16384x2 S4096x16384 [] [0, 1] [0, 1] 2
  gather_S4096x30_S30x1_S4096x30_0_1_n_n_1_1_40961_wf : GatherDims.WF S4096x30 S30x1 S4096x30 [0] [1] [] [1] [] 1 ![4096, 1]

variable [Facts₀]

def scatter_S4096x30_S4096x16384x2_S4096x16384_n_01_01_2 : ScatterDims S4096x30 S4096x16384x2 S4096x16384 where
  updateWindowDims := []
  insertedWindowDims := [0, 1]
  scatterDimsToOperandDims := [0, 1]
  indexVectorDim := 2
  wf := scatter_S4096x30_S4096x16384x2_S4096x16384_n_01_01_2_wf
def gather_S4096x30_S30x1_S4096x30_0_1_n_n_1_1_40961 : GatherDims S4096x30 S30x1 S4096x30 where
  offsetDims := [0]
  collapsedSliceDims := [1]
  operandBatchingDims := []
  startIndicesBatchingDims := []
  startIndexMap := [1]
  indexVectorDim := 1
  sliceSizes := ![4096, 1]
  wf := gather_S4096x30_S30x1_S4096x30_0_1_n_n_1_1_40961_wf

class Facts : Prop extends Facts₀ where

variable [Facts]
-- ==== Proof.KBody.lean ====
/-
  What one grid point's body leaves behind, read as values.

  The body keeps a 512×30 scratch of running counts. For each bin b = 0 … 29 it forms the one-hot mask
  (bin of the entry = b) of its 512×2048 input block, multiplies it on the matrix unit by the 2048×128 block of
  the second operand into a zero accumulator, takes column 0 of the product — the count column of bin b — and adds
  it to column b of the scratch. So, whatever the scratch held before (`old`), afterwards it holds
      step old x0 x1 (r, b) = old (r, b) + countCol b x0 x1 (r, 0).
  At the first point of a row of the grid the scratch is first overwritten with zeros; at the last one the whole
  scratch is then copied into the output block.
-/
import proofs.«176800_j81965155877403_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The count column of bin `b` from a block's bins `k` and the second operand's block `w`: column 0 of the product
    of the one-hot mask (bin = b) with `w`, accumulated from zero. -/
def countColK (b : BitVec 32) (k : IVec S512x2048 32) (w : FVec F S2048x128 .bf16) : FVec F S512x1 .f32 :=
  extractStridedSlice S512x1 ![0, 0]
    (matmul dot_S512x2048_S2048x128_S512x128_1_0_0_1_n_n none
      (truncf .bf16 (sitofp .f32 (extui 32 (cmpi .eq k (broadcast S512x2048 b)) natLt_1_32)) bitsLt_bf16_f32)
      w (constant S512x128 .f32 0x00000000#32))
    slices_S512x128_o0_0_S512x1

/-- The scratch after the thirty column updates, from what it held before, over the bins and the second operand. -/
def stepK (old : Vec F S512x30 .f32) (k : IVec S512x2048 32) (w : FVec F S2048x128 .bf16) : Vec F S512x30 .f32 :=
  fun y => FloatOps.addf (old y) (countColK (BitVec.ofNat 32 (y 1).val) k w (ix2 (y 0) (0 : Fin 1)))

/-- The same from the input block `x0` (its bins are `k0_pay3 x0`) and the second operand's block `x1`. -/
def step (old : Vec F S512x30 .f32) (x0 : Vec F S512x2048 .f32) (x1 : Vec F S2048x128 .bf16) : Vec F S512x30 .f32 :=
  stepK old (k0_pay3 x0) (k0_pay4 x1)

/-- Column `b` of the scratch, as the rectangle the body loads and stores it through, sits at (r, b). -/
theorem emb_col (b : Nat) (hb : b < 30) (inb : ∀ a, (![0, b] : Fin 2 → Nat) a + S512x1.size a ≤ S512x30.size a) (r : Fin 512) :
    (Rect.unit (s := S512x30) ![0, b] S512x1.size inb).emb (ix2 r (0 : Fin 1)) = ix2 r (⟨b, hb⟩ : Fin 30) := by
  funext a
  apply Fin.ext
  match a with
  | ⟨0, _⟩ => show 0 + 1 * r.val = r.val; omega
  | ⟨1, _⟩ => show b + 1 * 0 = b; omega

/-- A column store whose payload is the old column plus the bin's count column is a block of `step`. -/
theorem piece_eq (old : Vec F S512x30 .f32) (k : IVec S512x2048 32) (w : FVec F S2048x128 .bf16)
    (b : Nat) (hb : b < 30) (inb : ∀ a, (![0, b] : Fin 2 → Nat) a + S512x1.size a ≤ S512x30.size a)
    (pay : FVec F S512x1 .f32)
    (hpay : pay = addf (View.ld old (Rect.unit (s := S512x30) ![0, b] S512x1.size inb)) (countColK (BitVec.ofNat 32 b) k w))
    (x : S512x1.Idx) : pay x = stepK old k w ((Rect.unit (s := S512x30) ![0, b] S512x1.size inb).emb x) := by
  obtain ⟨r, rfl⟩ : ∃ r : Fin 512, x = ix2 r (0 : Fin 1) :=
    ⟨x 0, funext fun a => match a with
      | ⟨0, _⟩ => rfl
      | ⟨1, _⟩ => Fin.ext (Nat.lt_one_iff.mp (x 1).isLt)⟩
  subst hpay
  rw [emb_col b hb inb r]
  show FloatOps.addf (old ((Rect.unit (s := S512x30) ![0, b] S512x1.size inb).emb (ix2 r (0 : Fin 1)))) _ = _
  rw [emb_col b hb inb r]
  rfl

/-- Between the first and the last point of a grid row the body leaves, in the scratch that held `xs0`, its thirty
    updated columns: each store's payload is the old column plus the bin's count column, and the thirty
    rectangles tile the scratch. -/
theorem scratch_B (c : Dev nD) (i : grid0.Coords) (arg2 : Memref sig .tc .vmem S512x2048 .f32) (harg2 : arg2.IsWhole) (arg3 : Memref sig .tc .vmem S2048x128 .bf16) (harg3 : arg3.IsWhole) (arg4 : Memref sig .tc .vmem S512x30 .f32) (harg4 : arg4.IsWhole) (arg5 : Memref sig .tc .vmem S512x30 .f32) (harg5 : arg5.IsWhole) (hc0 : ¬cond0_0 i) (hc1 : ¬cond0_1 i)
    (x0 : Vec F S512x2048 .f32) (x1 : Vec F S2048x128 .bf16) (xs0 : Vec F S512x30 .f32) :
    sout0_B_0 c i arg2 harg2 arg3 harg3 arg4 harg4 arg5 harg5 hc0 hc1 x0 x1 xs0 = step xs0 x0 x1 := by
  unfold sout0_B_0
  rw [View.read_writes_eq_canon _ _ _ (scover0_B_0 c i arg2 harg2 arg3 harg3 arg4 harg4 arg5 harg5 hc0 hc1 x0 x1 xs0)]
  funext y
  refine View.canon_apply_of_pieces (stepK xs0 (k0_pay3 x0) (k0_pay4 x1)) _ ?_ y (scover0_B_0 c i arg2 harg2 arg3 harg3 arg4 harg4 arg5 harg5 hc0 hc1 x0 x1 xs0 y)
  unfold kernelRun0_B
  dsimp only
  sl_unfold_run_names
  simp only [View.readAt_eq_ld, harg2.read_unread, harg3.read_unread, harg5.read_unread,
    View.ld_unit_zero (S := S512x2048) hz, View.ld_unit_zero (S := S2048x128) hz]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (
    dsimp only
    intro x
    refine piece_eq xs0 (k0_pay3 x0) (k0_pay4 x1) _ (by decide) _ _ ?_ x
    exact shapeCast_self (s := S512x1) _ _)

/-- At the last point of a grid row the scratch ends the same way, -/
theorem scratch_C (c : Dev nD) (i : grid0.Coords) (arg2 : Memref sig .tc .vmem S512x2048 .f32) (harg2 : arg2.IsWhole) (arg3 : Memref sig .tc .vmem S2048x128 .bf16) (harg3 : arg3.IsWhole) (arg4 : Memref sig .tc .vmem S512x30 .f32) (harg4 : arg4.IsWhole) (arg5 : Memref sig .tc .vmem S512x30 .f32) (harg5 : arg5.IsWhole) (hc0 : ¬cond0_0 i) (hc1 : cond0_1 i)
    (x0 : Vec F S512x2048 .f32) (x1 : Vec F S2048x128 .bf16) (xs0 : Vec F S512x30 .f32) :
    sout0_C_0 c i arg2 harg2 arg3 harg3 arg4 harg4 arg5 harg5 hc0 hc1 x0 x1 xs0 = step xs0 x0 x1 := by
  unfold sout0_C_0
  rw [View.read_writes_eq_canon _ _ _ (scover0_C_0 c i arg2 harg2 arg3 harg3 arg4 harg4 arg5 harg5 hc0 hc1 x0 x1 xs0)]
  funext y
  refine View.canon_apply_of_pieces (stepK xs0 (k0_pay3 x0) (k0_pay4 x1)) _ ?_ y (scover0_C_0 c i arg2 harg2 arg3 harg3 arg4 harg4 arg5 harg5 hc0 hc1 x0 x1 xs0 y)
  unfold kernelRun0_C
  dsimp only
  sl_unfold_run_names
  simp only [View.readAt_eq_ld, harg2.read_unread, harg3.read_unread, harg5.read_unread,
    View.ld_unit_zero (S := S512x2048) hz, View.ld_unit_zero (S := S2048x128) hz]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (
    dsimp only
    intro x
    refine piece_eq xs0 (k0_pay3 x0) (k0_pay4 x1) _ (by decide) _ _ ?_ x
    exact shapeCast_self (s := S512x1) _ _)

/-- The whole-shape rectangle at zero offsets places an index at itself. -/
theorem idx_unit_zero (inb : ∀ a, (![0, 0] : Fin 2 → Nat) a + S512x30.size a ≤ S512x30.size a) (y : S512x30.Idx) :
    (Rect.unit (s := S512x30) ![0, 0] S512x30.size inb).toLoadRect.idx y = y :=
  funext fun a => Fin.ext (by
    match a with
    | ⟨0, _⟩ => show 0 + 1 * (y 0).val = (y 0).val; omega
    | ⟨1, _⟩ => show 0 + 1 * (y 1).val = (y 1).val; omega)

/-- and its one store into the output block copies the scratch as the thirty updates left it. -/
theorem out_C (c : Dev nD) (i : grid0.Coords) (arg2 : Memref sig .tc .vmem S512x2048 .f32) (harg2 : arg2.IsWhole) (arg3 : Memref sig .tc .vmem S2048x128 .bf16) (harg3 : arg3.IsWhole) (arg4 : Memref sig .tc .vmem S512x30 .f32) (harg4 : arg4.IsWhole) (arg5 : Memref sig .tc .vmem S512x30 .f32) (harg5 : arg5.IsWhole) (hc0 : ¬cond0_0 i) (hc1 : cond0_1 i)
    (x0 : Vec F S512x2048 .f32) (x1 : Vec F S2048x128 .bf16) (xs0 : Vec F S512x30 .f32) :
    out0_C_2 c i arg2 harg2 arg3 harg3 arg4 harg4 arg5 harg5 hc0 hc1 x0 x1 xs0 = step xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_run_names
  simp only [View.readAt_eq_ld, harg2.read_unread, harg3.read_unread, harg5.read_unread,
    View.ld_unit_zero (S := S512x2048) hz, View.ld_unit_zero (S := S2048x128) hz]
  rw [View.canon_unit_zero (S := S512x30) hz, View.readCov_eq_canon']
  funext y
  refine (congrArg (View.canon _) (idx_unit_zero _ y)).trans ?_
  refine View.canon_apply_of_pieces (stepK xs0 (k0_pay3 x0) (k0_pay4 x1)) _ ?_ y ?_
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals (
      dsimp only
      intro x
      refine piece_eq xs0 (k0_pay3 x0) (k0_pay4 x1) _ (by decide) _ _ ?_ x
      exact shapeCast_self (s := S512x1) _ _)
  · exact View.cover_of_tiledL (s := S512x30) _ S512x1.size (by sl_kernel_rfl) y

/-! ### The first point of a grid row: the scratch is zeroed, then updated column by column

Here each column's load reads back what the stores before it left (the zero fill, and the columns to its left,
which do not touch it), so the thirty stores are followed one at a time. -/

/-- The scratch after the first `n` column updates. -/
def updTo (old : Vec F S512x30 .f32) (k : IVec S512x2048 32) (w : FVec F S2048x128 .bf16) : Nat → Vec F S512x30 .f32
  | 0 => old
  | n + 1 => fun y =>
    if (y 1).val = n then FloatOps.addf (updTo old k w n y) (countColK (BitVec.ofNat 32 n) k w (ix2 (y 0) (0 : Fin 1)))
    else updTo old k w n y

/-- After `n` updates the columns left of `n` are updated, the others are as before. -/
theorem updTo_apply (old : Vec F S512x30 .f32) (k : IVec S512x2048 32) (w : FVec F S2048x128 .bf16) :
    ∀ (n : Nat) (y : S512x30.Idx), updTo old k w n y = if (y 1).val < n then stepK old k w y else old y
  | 0, y => by rw [if_neg (Nat.not_lt_zero _)]; rfl
  | n + 1, y => by
    show (if (y 1).val = n then FloatOps.addf (updTo old k w n y) (countColK (BitVec.ofNat 32 n) k w (ix2 (y 0) (0 : Fin 1)))
      else updTo old k w n y) = _
    rw [updTo_apply old k w n y]
    by_cases h : (y 1).val = n
    · rw [if_pos h, if_neg (by omega), if_pos (by omega)]
      show _ = FloatOps.addf (old y) (countColK (BitVec.ofNat 32 (y 1).val) k w (ix2 (y 0) (0 : Fin 1)))
      rw [h]
    · rw [if_neg h]
      by_cases h2 : (y 1).val < n
      · rw [if_pos h2, if_pos (by omega)]
      · rw [if_neg h2, if_neg (by omega)]

/-- One more column store on top of stores that leave `updTo … b`: its load reads column `b` of what they left,
    its store covers exactly column `b`. -/
theorem canon_col_cons (v : View sig .tc .vmem S512x30 .f32) (L : List (View.Piece (Elt F) S512x30 .f32))
    (old : Vec F S512x30 .f32) (k : IVec S512x2048 32) (w : FVec F S2048x128 .bf16)
    (b : Nat) (hb : b < 30) (inb : ∀ a, (![0, b] : Fin 2 → Nat) a + S512x1.size a ≤ S512x30.size a)
    (pay : FVec F S512x1 .f32)
    (hpay : pay = addf (v.readCov L (Rect.unit (s := S512x30) ![0, b] S512x1.size inb).toLoadRect) (countColK (BitVec.ofNat 32 b) k w))
    (hL : ∀ y, View.canon L y = updTo old k w b y) (y : S512x30.Idx) :
    View.canon ((⟨Rect.unit (s := S512x30) ![0, b] S512x1.size inb, pay⟩ : View.Piece (Elt F) S512x30 .f32) :: L) y
      = updTo old k w (b + 1) y := by
  obtain ⟨r, q, rfl⟩ : ∃ (r : Fin 512) (q : Fin 30), y = ix2 r q := ⟨y 0, y 1, eq_ix2 y⟩
  show _ = if q.val = b then FloatOps.addf (updTo old k w b (ix2 r q)) (countColK (BitVec.ofNat 32 b) k w (ix2 r (0 : Fin 1)))
      else updTo old k w b (ix2 r q)
  by_cases hq : q.val = b
  · obtain rfl : q = ⟨b, hb⟩ := Fin.ext hq
    rw [if_pos rfl]
    conv_lhs => rw [← emb_col b hb inb r]
    rw [View.canon_cons_emb, hpay, View.readCov_eq_canon']
    show FloatOps.addf (View.canon L ((Rect.unit (s := S512x30) ![0, b] S512x1.size inb).emb (ix2 r (0 : Fin 1)))) _ = _
    rw [emb_col b hb inb r, hL]
  · rw [if_neg hq, View.canon_cons_of_not_mem _ _ (fun h => hq ?_), hL]
    have h' : ix2 r q ∈ (Rect.unit (s := S512x30) ![0, b] S512x1.size inb).set := h
    have h1 := (Rect.mem_set_unit.mp h') (1 : Fin 2)
    change b ≤ q.val ∧ q.val < b + 1 at h1
    omega

/-- At the first point of a grid row the body leaves in the scratch the thirty count columns over zeros. -/
theorem scratch_A (c : Dev nD) (i : grid0.Coords) (arg2 : Memref sig .tc .vmem S512x2048 .f32) (harg2 : arg2.IsWhole) (arg3 : Memref sig .tc .vmem S2048x128 .bf16) (harg3 : arg3.IsWhole) (arg4 : Memref sig .tc .vmem S512x30 .f32) (harg4 : arg4.IsWhole) (arg5 : Memref sig .tc .vmem S512x30 .f32) (harg5 : arg5.IsWhole) (hc0 : cond0_0 i) (hc1 : ¬cond0_1 i)
    (x0 : Vec F S512x2048 .f32) (x1 : Vec F S2048x128 .bf16) :
    sout0_A_0 c i arg2 harg2 arg3 harg3 arg4 harg4 arg5 harg5 hc0 hc1 x0 x1 = step k0_pay2 x0 x1 := by
  unfold sout0_A_0
  rw [View.read_writes_eq_canon _ _ _ (scover0_A_0 c i arg2 harg2 arg3 harg3 arg4 harg4 arg5 harg5 hc0 hc1 x0 x1)]
  have hX0 : View.readAt (Elt F) arg2.view (Rect.unit ![0, 0] S512x2048.size inb_S512x2048_S512x2048_0_0).toLoadRect (harg2.unread x0) = x0 := by
    simp only [View.readAt_eq_ld, harg2.read_unread, View.ld_unit_zero (S := S512x2048) hz]
  have hX1 : View.readAt (Elt F) arg3.view (Rect.unit ![0, 0] S2048x128.size inb_S2048x128_S2048x128_0_0).toLoadRect (harg3.unread x1) = x1 := by
    simp only [View.readAt_eq_ld, harg3.read_unread, View.ld_unit_zero (S := S2048x128) hz]
  have key : ∀ y, View.canon (kernelRun0_A c i arg2 harg2 arg3 harg3 arg4 harg4 arg5 harg5 hc0 hc1 x0 x1).2.1 y
      = updTo k0_pay2
          (k0_pay3 (View.readAt (Elt F) arg2.view (Rect.unit ![0, 0] S512x2048.size inb_S512x2048_S512x2048_0_0).toLoadRect (harg2.unread x0)))
          (k0_pay4 (View.readAt (Elt F) arg3.view (Rect.unit ![0, 0] S2048x128.size inb_S2048x128_S2048x128_0_0).toLoadRect (harg3.unread x1)))
          30 y := by
    unfold kernelRun0_A
    dsimp only
    iterate 30 (
      refine fun y => canon_col_cons arg5.view _ _ _ _ _ ?_ _ _ ?_ ?_ y
      · decide
      · first
          | exact shapeCast_self (s := S512x1) _ _
          | (delta kernelRun0_A.sl.r_5; exact shapeCast_self (s := S512x1) _ _))
    intro y
    exact congrFun (View.canon_unit_zero (S := S512x30) hz _ _) y
  funext y
  rw [key y, hX0, hX1, updTo_apply, if_pos (show (y 1).val < 30 from (y 1).isLt)]
  rfl

end Cert.KernelIdeal.Body

end
-- ==== Proof.KAcc.lean ====
/-
  What the carried scratch holds after each grid point, as a sum.

  The grid is 8 row tiles by 8 column tiles, visited row tile by row tile: point n handles row tile n / 8 and column
  tile n % 8. Write addend n (r, b) for the count column of bin b of point n's input block at row r. The scratch is
  zeroed at the first point of a row tile and then only added to, so after point n it holds, at (r, b), the sum of
  the addends of the points n - n % 8, …, n: the part of the row tile's histogram seen so far. At the last point of a
  row tile (n % 8 = 7) the output block is a copy of it.
-/
import proofs.«176800_j81965155877403_2_alg».proof.Proof.KBody
import Idealize.ShloMosaic.PureOps.Ideal.Laws

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Body

variable (m : (ℓ : Loc nD τ sig) → Buf (Elt Ideal) ℓ)

/-- The zero fill is zero. -/
theorem zero_apply (y : S512x30.Idx) : (k0_pay2 : FVec Ideal S512x30 .f32) y = 0 := by
  unfold k0_pay2
  rw [shapeCast_self]
  exact Ideal.ofBits_zero_f32

/-- Over the extended reals one body adds each bin's count column to the scratch. -/
theorem step_apply (old : Vec Ideal S512x30 .f32) (x0 : Vec Ideal S512x2048 .f32) (x1 : Vec Ideal S2048x128 .bf16)
    (y : S512x30.Idx) :
    step old x0 x1 y = old y + countColK (BitVec.ofNat 32 (y 1).val) (k0_pay3 x0) (k0_pay4 x1) (ix2 (y 0) (0 : Fin 1)) := rfl

/-- Point `t`'s contribution at (r, b): the count column of bin b of its input block, at row r. -/
def addend (c : Dev nD) (t : Nat) (y : S512x30.Idx) : EReal :=
  if h : t < cfg0.N then
    countColK (F := Ideal) (BitVec.ofNat 32 (y 1).val) (k0_pay3 (iblk m c 0 ⟨t, h⟩)) (k0_pay4 (iblk m c 1 ⟨t, h⟩))
      (ix2 (y 0) (0 : Fin 1))
  else 0

theorem addend_of_lt (c : Dev nD) (t : Nat) (h : t < cfg0.N) (y : S512x30.Idx) :
    addend m c t y = countColK (F := Ideal) (BitVec.ofNat 32 (y 1).val) (k0_pay3 (iblk m c 0 ⟨t, h⟩))
      (k0_pay4 (iblk m c 1 ⟨t, h⟩)) (ix2 (y 0) (0 : Fin 1)) := by
  unfold addend; rw [dif_pos h]

/-- After point `n` the scratch holds the sum of the addends of its row tile's points up to `n`. -/
theorem scratch_eq (c : Dev nD) : ∀ (n : ℕ) (h : n < cfg0.N) (y : S512x30.Idx),
    (outsAt0 m c n h).2 y = ∑ s ∈ Finset.range (n % 8 + 1), addend m c (n - n % 8 + s) y
  | 0, h, y => by
    rw [outsAt0_A m c ⟨0, h⟩ rfl (by show ¬(0 % 8 = 7); decide)]
    dsimp only
    rw [scratch_A, step_apply, zero_apply, zero_add]
    show _ = ∑ s ∈ Finset.range 1, addend m c (0 + s) y
    rw [Finset.sum_range_one]
    exact (addend_of_lt m c 0 h y).symm
  | n + 1, h, y => by
    have hN : cfg0.N = 64 := N_0
    by_cases h0 : (n + 1) % 8 = 0
    · rw [outsAt0_A m c ⟨n + 1, h⟩ h0 (by dsimp only; omega)]
      dsimp only
      rw [scratch_A, step_apply, zero_apply, zero_add, h0]
      show _ = ∑ s ∈ Finset.range 1, addend m c (n + 1 - 0 + s) y
      rw [Finset.sum_range_one]
      exact (addend_of_lt m c (n + 1) h y).symm
    · have ih := scratch_eq c n (Nat.lt_of_succ_lt h) y
      have e1 : (n + 1) % 8 = n % 8 + 1 := by omega
      have e2 : n + 1 - (n % 8 + 1) = n - n % 8 := by omega
      have e3 : n - n % 8 + (n % 8 + 1) = n + 1 := by omega
      rw [e1, e2, Finset.sum_range_succ, ← ih, e3, addend_of_lt m c (n + 1) h]
      by_cases h1 : (n + 1) % 8 = 7
      · rw [outsAt0_C m c ⟨n + 1, h⟩ h0 h1]
        dsimp only
        rw [scratch_C, step_apply]
        rfl
      · rw [outsAt0_B m c ⟨n + 1, h⟩ h0 h1]
        dsimp only
        rw [scratch_B, step_apply]
        rfl

/-- At the last point of a row tile the output block is the scratch. -/
theorem out_eq (c : Dev nD) (t : Fin cfg0.N) (h7 : t.val % 8 = 7) (y : S512x30.Idx) :
    (outsAt0 m c t.val t.isLt).1 y = (outsAt0 m c t.val t.isLt).2 y := by
  rw [outsAt0_C m c t (by omega) h7]
  dsimp only
  rw [out_C, scratch_C]

end Cert.KernelIdeal.Acc

end
-- ==== Proof.Spec.lean ====
/-
  The histogram both programs compute, stated once over the extended reals.

  An entry x of the input falls into bin
      binOf x = trunc (min 28 (max (-1) ⌊(x - (-6)) / w⌋)) + 1,   w the binary value 0x3EDB6DB7 (near 3/7),
  a 32-bit integer; because the clipped value lies in [-1, 28] whatever x is (the infinities included),
  binOf x lies in [0, 29]. Row R of the histogram counts, bin by bin, the entries of row R of the input:
      hist x (R, b) = ∑ over the 16384 columns c of (1 if binOf x[R, c] = b, else 0).
-/
import Idealize.ShloMosaic.Lib.ValueIdx
import Idealize.ShloMosaic.PureOps.Ideal.Laws

noncomputable section

namespace Cert.Hist

open Idealize.ShloMosaic Idealize.ShloMosaic.ValueIdx

/-- The input's shape and the histogram's. -/
abbrev SX : Shape := ⟨2, ![4096, 16384]⟩
abbrev SH : Shape := ⟨2, ![4096, 30]⟩

/-- The clipped bin coordinate of one entry, an extended real in [-1, 28]. -/
def clipOf (x : EReal) : EReal :=
  min (Ideal.ofBits .f32 0x41E00000#32) (max (Ideal.ofBits .f32 0xBF800000#32)
    (Ideal.liftRound Int.floor (Ideal.div (x - Ideal.ofBits .f32 0xC0C00000#32) (Ideal.ofBits .f32 0x3EDB6DB7#32))))

/-- The bin of one entry: the clipped coordinate as a 32-bit integer, plus one. -/
def binOf (x : EReal) : BitVec 32 := Ideal.fptosi 32 (clipOf x) + 1#32

/-- The upper clipping constant: sign 0, exponent 131 (2^4), significand 1.75: the real 28. -/
theorem ofBits_28 : Ideal.ofBits .f32 0x41E00000#32 = ((28 : ℝ) : EReal) := by
  simp [Ideal.ofBits, Ideal.ieee, -EReal.coe_mul]; norm_num

/-- The lower clipping constant: sign 1, exponent 127 (2^0), significand 1: the real -1. -/
theorem ofBits_neg1 : Ideal.ofBits .f32 0xBF800000#32 = ((-1 : ℝ) : EReal) := by
  simp [Ideal.ofBits, Ideal.ieee, -EReal.coe_mul]; norm_num

/-- Clipping any extended real to [-1, 28] gives a real in [-1, 28]: -∞ goes to -1, +∞ to 28, and a real r
    to min 28 (max (-1) r). -/
theorem clip_real (y : EReal) :
    ∃ z : ℝ, min (((28 : ℝ) : EReal)) (max (((-1 : ℝ) : EReal)) y) = (z : EReal) ∧ -1 ≤ z ∧ z ≤ 28 := by
  induction y using EReal.rec with
  | bot =>
    refine ⟨-1, ?_, le_refl _, by norm_num⟩
    rw [max_eq_left bot_le, min_eq_right]
    exact EReal.coe_le_coe_iff.2 (by norm_num)
  | coe r =>
    refine ⟨min 28 (max (-1) r), ?_, le_min (by norm_num) (le_max_left _ _), min_le_left _ _⟩
    rw [EReal.coe_strictMono.monotone.map_min, EReal.coe_strictMono.monotone.map_max]
  | top =>
    refine ⟨28, ?_, by norm_num, le_refl _⟩
    rw [max_eq_right le_top, min_eq_left le_top]

/-- The integer part toward zero of a real in [-1, 28] lies in [-1, 28]. -/
theorem trunc_range (z : ℝ) (h1 : -1 ≤ z) (h2 : z ≤ 28) :
    -1 ≤ (if 0 ≤ z then ⌊z⌋ else ⌈z⌉) ∧ (if 0 ≤ z then ⌊z⌋ else ⌈z⌉) ≤ 28 := by
  split_ifs with h
  · constructor
    · have := Int.floor_nonneg.2 h; omega
    · have : ((⌊z⌋ : ℤ) : ℝ) ≤ 28 := le_trans (Int.floor_le z) h2
      exact_mod_cast this
  · have h := (not_le.1 h)
    constructor
    · have : ((-1 : ℤ) : ℝ) ≤ ((⌈z⌉ : ℤ) : ℝ) := by
        push_cast; exact le_trans h1 (Int.le_ceil z)
      exact_mod_cast this
    · have : ⌈z⌉ ≤ 0 := Int.ceil_le.2 (by exact_mod_cast h.le)
      omega

/-- For an integer t in [-1, 28], the 32-bit word of t plus the word 1 reads, signed, as t + 1: neither t nor
    t + 1 leaves the signed range, so no reduction modulo 2^32 changes anything. -/
theorem toInt_succ (t : Int) (h1 : -1 ≤ t) (h2 : t ≤ 28) :
    (BitVec.ofInt 32 t + 1#32).toInt = t + 1 := by
  rw [BitVec.toInt_add, BitVec.toInt_ofInt]
  have : (1#32 : BitVec 32).toInt = 1 := by decide
  rw [this]
  simp only [Int.bmod_def]
  split_ifs <;> omega

/-- Whatever the entry, its bin lies in [0, 29]: the clipped coordinate is a real in [-1, 28], its integer part
    toward zero lies in [-1, 28] and survives the clamp to the 32-bit signed range, and adding one neither wraps
    nor leaves [0, 29]. -/
theorem binOf_range (x : EReal) : 0 ≤ (binOf x).toInt ∧ (binOf x).toInt ≤ 29 := by
  obtain ⟨z, hz, h1, h2⟩ := clip_real
    (Ideal.liftRound Int.floor (Ideal.div (x - Ideal.ofBits .f32 0xC0C00000#32) (Ideal.ofBits .f32 0x3EDB6DB7#32)))
  have hc : clipOf x = (z : EReal) := by
    unfold clipOf
    rw [ofBits_28, ofBits_neg1]
    exact hz
  obtain ⟨t1, t2⟩ := trunc_range z h1 h2
  unfold binOf
  rw [hc, Ideal.fptosi, Ideal.toIntClamped_coe]
  have e : max (-((2 ^ (32 - 1) : Nat) : Int)) (min (((2 ^ (32 - 1) : Nat) : Int) - 1) (if 0 ≤ z then ⌊z⌋ else ⌈z⌉))
      = (if 0 ≤ z then ⌊z⌋ else ⌈z⌉) := by
    norm_num
    omega
  rw [e, toInt_succ _ t1 t2]
  omega

/-- One row of the histogram at one bin: how many of the row's 16384 entries fall into the bin. -/
def histAt (x : SX.Idx → EReal) (R : Fin 4096) (b : Fin 30) : EReal :=
  ∑ c : Fin 16384, if binOf (x (ix2 R c)) = BitVec.ofNat 32 b.val then (1 : EReal) else 0

/-- The histogram in natural bin order. -/
def hist (x : SX.Idx → EReal) : SH.Idx → EReal := fun i => histAt x (i 0) (i 1)

end Cert.Hist

end
-- ==== Proof.KCount.lean ====
/-
  The count column of one bin, read as a value at the extended reals.

  An entry's bin as the block computes it — subtract, divide, floor, clip, convert, add one, with the
  program's literal words — is, entry by entry, the bin function of the shared specification. The one-hot
  mask (bins = b), widened to 32 bits, converted to a float and narrowed, is 1 where the bin is b and 0
  elsewhere; the matrix product of the mask with the second operand's block into a zero accumulator,
  read in column 0 of row r, is therefore the sum over the 2048 columns j of
  (1 if the bin at (r, j) is b, else 0) times the second operand's entry (j, 0).
-/
import proofs.«176800_j81965155877403_2_alg».proof.Proof.KBody
import proofs.«176800_j81965155877403_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Count

open Cert.KernelIdeal Cert.KernelIdeal.Gen

/-- The block's bins are the specification's bin function, entry by entry: the payload applies, lane by lane, the
    same operations to the same literal words. -/
theorem bins_apply (x0 : Vec Ideal S512x2048 .f32) (r : Fin 512) (k : Fin 2048) :
    Cert.KernelIdeal.Gen.k0_pay3 (F := Ideal) x0 (ix2 r k) = Cert.Hist.binOf (x0 (ix2 r k)) := by
  rfl

/-- The second operand's block passes through a reshape to its own shape: unchanged. -/
theorem ones_apply {F : FTy → Type} [FloatOps F] (x1 : Vec F S2048x128 .bf16) :
    Cert.KernelIdeal.Gen.k0_pay4 x1 = x1 :=
  shapeCast_self _ _

/-- An equality test's bit, zero-extended to 32 bits and read as a signed integer, then as an extended real, is 1
    when the two words are equal and 0 when they are not. -/
theorem onehot (u v : BitVec 32) :
    ((((IntOp.cmpi .eq u v).setWidth 32).toInt : ℝ) : EReal) = if u = v then (1 : EReal) else 0 := by
  unfold IntOp.cmpi
  by_cases h : u = v
  · have e : (u == v) = true := by simpa using h
    have t : ((BitVec.ofBool true).setWidth 32).toInt = 1 := by decide
    rw [if_pos h]
    simp only [e, t]
    norm_num
  · have e : (u == v) = false := by simpa using h
    have t : ((BitVec.ofBool false).setWidth 32).toInt = 0 := by decide
    rw [if_neg h]
    simp only [e, t]
    norm_num

/-- The product's left operand index at result (r, j1) and contraction coordinate c is (r, c): axis 0 is the
    result's row, axis 1 the contracted one. -/
theorem lhs_at (r : Fin 512) (j1 : Fin 128) (c : Fin 2048) :
    dot_S512x2048_S2048x128_S512x128_1_0_0_1_n_n.lhsIdx (ix2 r j1)
      ((contrEquiv1 dot_S512x2048_S2048x128_S512x128_1_0_0_1_n_n 2048 rfl rfl).symm c) = ix2 r c := by
  have c2 := contrEquiv1_symm_val dot_S512x2048_S2048x128_S512x128_1_0_0_1_n_n 2048 rfl rfl c
  funext ax; apply Fin.ext
  match ax with
  | ⟨0, _⟩ => simp [DotDims.lhsIdx, dot_S512x2048_S2048x128_S512x128_1_0_0_1_n_n]; rfl
  | ⟨1, _⟩ => simp [DotDims.lhsIdx, dot_S512x2048_S2048x128_S512x128_1_0_0_1_n_n]; exact c2

/-- The right operand index there is (c, j1): axis 0 is the contracted one, axis 1 the result's column. -/
theorem rhs_at (r : Fin 512) (j1 : Fin 128) (c : Fin 2048) :
    dot_S512x2048_S2048x128_S512x128_1_0_0_1_n_n.rhsIdx (ix2 r j1)
      ((contrEquiv1 dot_S512x2048_S2048x128_S512x128_1_0_0_1_n_n 2048 rfl rfl).symm c) = ix2 c j1 := by
  have c2 := contrEquiv1_symm_val dot_S512x2048_S2048x128_S512x128_1_0_0_1_n_n 2048 rfl rfl c
  funext ax; apply Fin.ext
  match ax with
  | ⟨0, _⟩ => simp [DotDims.rhsIdx, dot_S512x2048_S2048x128_S512x128_1_0_0_1_n_n]; exact c2
  | ⟨1, _⟩ => simp [DotDims.rhsIdx, dot_S512x2048_S2048x128_S512x128_1_0_0_1_n_n]; rfl

/-- The count column of bin b at row r: entry (r, 0) of the slice is entry (r, 0) of the product, which into the
    zero accumulator is the sum over the contracted coordinate j of mask (r, j) times the right operand's (j, 0);
    the mask entry is 1 or 0 as the bin at (r, j) is b or not. -/
theorem countColK_apply (b : BitVec 32) (k : IVec S512x2048 32) (w : FVec Ideal S2048x128 .bf16) (r : Fin 512) :
    Cert.KernelIdeal.Body.countColK (F := Ideal) b k w (ix2 r (0 : Fin 1)) =
      ∑ j : Fin 2048, (if k (ix2 r j) = b then (1 : EReal) else 0) * w (ix2 j (0 : Fin 128)) := by
  unfold Cert.KernelIdeal.Body.countColK
  refine (extractStridedSlice_apply (t := S512x1) ![0, 0] _ slices_S512x128_o0_0_S512x1 (ix2 r (0 : Fin 1))
    (ix2 r (0 : Fin 128)) ?_).trans ?_
  · intro a
    match a with
    | ⟨0, _⟩ => show r.val = 0 + r.val; omega
    | ⟨1, _⟩ => rfl
  refine (Ideal.matmul_constant_zero_apply _ none _ _ _).trans ?_
  rw [← Equiv.sum_comp (contrEquiv1 dot_S512x2048_S2048x128_S512x128_1_0_0_1_n_n 2048 rfl rfl).symm]
  refine Finset.sum_congr rfl fun c _ => ?_
  rw [lhs_at, rhs_at]
  congr 1
  exact onehot (k (ix2 r c)) b

/-- One update of the scratch read at (r, b): what it held plus the count column of bin b at row r. -/
theorem stepK_apply (old : Vec Ideal S512x30 .f32) (k : IVec S512x2048 32) (w : FVec Ideal S2048x128 .bf16)
    (r : Fin 512) (b : Fin 30) :
    Cert.KernelIdeal.Body.stepK (F := Ideal) old k w (ix2 r b) =
      old (ix2 r b) + ∑ j : Fin 2048, (if k (ix2 r j) = BitVec.ofNat 32 b.val then (1 : EReal) else 0) * w (ix2 j (0 : Fin 128)) := by
  show old (ix2 r b) + Cert.KernelIdeal.Body.countColK (F := Ideal) (BitVec.ofNat 32 b.val) k w (ix2 r (0 : Fin 1)) = _
  rw [countColK_apply]

end Cert.KernelIdeal.Count

end
-- ==== Proof.KBlocks.lean ====
/-
  The kernel's two input blocks, read at an index.

  The grid has 64 points; point t works on row tile t / 8 and column tile t % 8. The first window cuts the
  input x : [4096, 16384] into blocks [512, 2048], so entry (r, k) of the block at point t is
  x (512 * (t / 8) + r, 2048 * (t % 8) + k): a block's coordinate is always block index times block size
  plus the coordinate inside the block. The second window is the whole [2048, 128] array that the program
  fills, before the kernel starts, with the constant one; every entry of its block is 1.
-/
import proofs.«176800_j81965155877403_2_alg».proof.Proof.Gen.KernelIdeal.Frame
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The first window's block index at point t is (t / 8, t % 8): decided once over the 64 points. -/
theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

/-- The second window's block index is (0, 0) at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry (r, k) of the first window's block at point t is the input's entry
    (512 * (t / 8) + r, 2048 * (t % 8) + k). -/
theorem iblk0_apply (c : Dev nD) (t : Fin cfg0.N) (r : Fin 512) (k : Fin 2048) :
    (iblk m c 0 t : Vec Ideal S512x2048 .f32) (ix2 r k) =
      m ((c : Thread nD τ).loc main_arg0)
        (ix2 (⟨512 * (t.val / 8) + r.val, by have := t.isLt; have hN : cfg0.N = 64 := N_0; omega⟩ : Fin 4096)
          (⟨2048 * (t.val % 8) + k.val, by omega⟩ : Fin 16384)) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 8) + r.val; rw [hi.1]; omega
  | ⟨1, _⟩ => show win0_0.index t 1 * 2048 + 1 * k.val = 2048 * (t.val % 8) + k.val; rw [hi.2]; omega

/-- The second window's array, as the kernel finds it: the scalar constant with the bf16 pattern of one,
    broadcast to [2048, 128]. -/
theorem v0_eq (c : Dev nD) :
    (V m c main_v0 : S2048x128.Idx → EReal) =
      broadcastInDim S2048x128 ![] bcast_S_S2048x128 (constant (F := Ideal) S_ .bf16 0x3F80#16) := by
  dsimp only [Gen.V, Gen.V0]
  simp only [Gen.hostOps0, List.flatten_cons, List.flatten_nil, List.append_nil]
  after_results

/-- Every entry of the second window's block is 1. -/
theorem iblk1_apply (c : Dev nD) (t : Fin cfg0.N) (k : Fin 2048) (j : Fin 128) :
    (iblk m c 1 t : Vec Ideal S2048x128 .bf16) (ix2 k j) = (1 : EReal) := by
  unfold iblk
  rw [View.read_apply]
  show (V m c main_v0 : S2048x128.Idx → EReal) _ = _
  rw [v0_eq, broadcastInDim_scalar_apply, constant_apply, Ideal.ofBits_one_bf16]

end Cert.KernelIdeal.Blocks

end
-- ==== Proof.SumSplit.lean ====
/-
  A sum over 16384 columns, split into 8 tiles of 2048 columns.

  Column c is 2048 * s + k for exactly one tile s < 8 and one offset k < 2048 (division with remainder), so
  the sum over all columns is the double sum over tiles and offsets.
-/
import Mathlib.Algebra.BigOperators.Fin

open scoped BigOperators

namespace Cert.Hist

/-- The generic form: a sum over Fin (m * n) is the sum over i < m and j < n of the term at n * i + j. -/
theorem sum_mul_split {M : Type*} [AddCommMonoid M] (m n : Nat) (f : Fin (m * n) → M) :
    ∑ c : Fin (m * n), f c = ∑ s : Fin m, ∑ k : Fin n, f ⟨n * s.val + k.val, by
      have hs := s.isLt
      have hk := k.isLt
      have h : n * (s.val + 1) ≤ n * m := Nat.mul_le_mul_left n hs
      rw [Nat.mul_succ] at h
      rw [Nat.mul_comm m n]
      omega⟩ := by
  rw [← Fintype.sum_prod_type']
  rw [← Equiv.sum_comp finProdFinEquiv f]
  refine Finset.sum_congr rfl fun p _ => ?_
  congr 1
  apply Fin.ext
  simp only [finProdFinEquiv_apply_val]
  exact Nat.add_comm _ _

theorem sum_tiles {M : Type*} [AddCommMonoid M] (f : Fin 16384 → M) :
    ∑ c : Fin 16384, f c = ∑ s : Fin 8, ∑ k : Fin 2048, f ⟨2048 * s.val + k.val, by omega⟩ :=
  sum_mul_split 8 2048 f

end Cert.Hist
-- ==== Proof.KFinal.lean ====
/-
  The array the kernel's pallas_call leaves: the histogram in natural bin order.

  Row tile q of the output is written back once, after the last point 8q + 7 of its grid row, from the scratch,
  which then holds the sum of the eight points' addends. Point 8q + s reads rows 512q … 512q + 511 and columns
  2048s … 2048s + 2047 of the input, and the second operand's block is all ones; so the addend of point 8q + s at
  (r, b) counts the entries of row 512q + r in column tile s whose bin is b, and the eight of them together count
  the whole row: the specification's histogram, the sum over 16384 columns split into eight tiles of 2048.
-/
import proofs.«176800_j81965155877403_2_alg».proof.Proof.KAcc
import proofs.«176800_j81965155877403_2_alg».proof.Proof.KCount
import proofs.«176800_j81965155877403_2_alg».proof.Proof.KBlocks
import proofs.«176800_j81965155877403_2_alg».proof.Proof.Spec
import proofs.«176800_j81965155877403_2_alg».proof.Proof.SumSplit
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Body Cert.KernelIdeal.Acc

variable (m : (ℓ : Loc nD τ sig) → Buf (Elt Ideal) ℓ) (ρ : Dev nD → PrngReg)

/-- The input array as the program is launched with it. -/
abbrev xin (c : Dev nD) : S4096x16384.Idx → EReal := m ((c : Thread nD τ).loc main_arg0)

/-- Point `t`'s addend at (r, b) counts the entries of the input's row 512·(t / 8) + r, within column tile t % 8,
    whose bin is b. -/
theorem addend_apply (c : Dev nD) (t : Nat) (h : t < cfg0.N) (r : Fin 512) (b : Fin 30)
    (hr : 512 * (t / 8) + r.val < 4096) (hc : ∀ j : Fin 2048, 2048 * (t % 8) + j.val < 16384) :
    addend m c t (ix2 r b) = ∑ j : Fin 2048,
      if Cert.Hist.binOf (xin m c (ix2 (⟨512 * (t / 8) + r.val, hr⟩ : Fin 4096) (⟨2048 * (t % 8) + j.val, hc j⟩ : Fin 16384)))
        = BitVec.ofNat 32 b.val then (1 : EReal) else 0 := by
  rw [addend_of_lt m c t h]
  show countColK (BitVec.ofNat 32 b.val) _ _ (ix2 r (0 : Fin 1)) = _
  rw [Count.countColK_apply]
  refine Finset.sum_congr rfl fun j _ => ?_
  rw [Count.ones_apply (iblk m c 1 ⟨t, h⟩), Blocks.iblk1_apply m c ⟨t, h⟩ j (0 : Fin 128), mul_one,
    Count.bins_apply (iblk m c 0 ⟨t, h⟩) r j, Blocks.iblk0_apply m c ⟨t, h⟩ r j]

/-- The output window's block index, decided over the grid: row tile t / 8, column block 0. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The specification's histogram at an index given by its coordinates. -/
theorem hist_ix2 (x : Cert.Hist.SX.Idx → EReal) (R : Fin 4096) (b : Fin 30) :
    Cert.Hist.hist x (ix2 R b) = Cert.Hist.histAt x R b := rfl

/-- What a write-back writes is that row tile of the specification's histogram. -/
theorem flushed_eq (c : Dev nD) (t : Fin cfg0.N) (hf : (cfg0.win 2).flush t = true) :
    (dats m 0 c).flushed 2 t = ((cfg0.win 2).blk t).view.read (Elt Ideal) (Cert.Hist.hist (xin m c)) := by
  have h7 : t.val % 8 = 7 := (flush0_2 t).mp hf
  have hN : cfg0.N = 64 := N_0
  have ht : t.val < 64 := lt_of_lt_of_eq t.isLt hN
  show (cfg0.win 2).cut (grid0.coords t) ((dats m 0 c).after 2 t) = _
  rw [after0_2]
  funext y
  rw [View.read_apply]
  obtain ⟨r, b, rfl⟩ : ∃ (r : Fin 512) (b : Fin 30), y = ix2 r b := ⟨y 0, y 1, eq_ix2 y⟩
  have hr : 512 * (t.val / 8) + r.val < 4096 := by have := r.isLt; omega
  have hemb : ((cfg0.win 2).blk t).view.emb (ix2 r b) = ix2 (⟨512 * (t.val / 8) + r.val, hr⟩ : Fin 4096) b := by
    obtain ⟨e0, e1⟩ := idx2 t
    funext a; apply Fin.ext
    match a with
    | ⟨0, _⟩ => show win0_2.index t (0 : Fin 2) * 512 + 1 * r.val = 512 * (t.val / 8) + r.val; rw [e0]; omega
    | ⟨1, _⟩ => show win0_2.index t (1 : Fin 2) * 30 + 1 * b.val = b.val; rw [e1]; omega
  show (outsAt0 m c t.val t.isLt).1 (ix2 r b) = _
  rw [hemb, out_eq m c t h7, scratch_eq m c t.val t.isLt, h7, show (7 + 1 : ℕ) = 8 from rfl, hist_ix2]
  unfold Cert.Hist.histAt
  rw [Cert.Hist.sum_tiles, Finset.sum_range]
  refine Finset.sum_congr rfl fun s _ => ?_
  have hs : s.val < 8 := s.isLt
  have q1 : (t.val - 7 + s.val) / 8 = t.val / 8 := by omega
  have q2 : (t.val - 7 + s.val) % 8 = s.val := by omega
  rw [addend_apply m c (t.val - 7 + s.val) (by omega) r b (by rw [q1]; exact hr)
    (fun j => by have := j.isLt; rw [q2]; omega)]
  refine Finset.sum_congr rfl fun j _ => ?_
  simp only [q1, q2]

/-- An index of the output array is in point `t`'s block iff each coordinate is in the block's range. -/
theorem mem_blk (t : Fin cfg0.N) (i : S4096x30.Idx) :
    i ∈ ((cfg0.win 2).blk t).view.set ↔ ∀ a : Fin 2, win0_2.index t a * S512x30.size a ≤ (i a).val
      ∧ (i a).val < win0_2.index t a * S512x30.size a + S512x30.size a := by
  show i ∈ ((View.whole main_v1).slice (win0_2.rect t)).set ↔ _
  rw [View.set_slice_whole, Rect.mem_set_unit]
  exact Iff.rfl

/-- Every row of the output lies in the block written back after the last point of its row tile. -/
theorem cover (i : S4096x30.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 30 := (i 1).isLt
  have hlt : 8 * ((i 0).val / 512) + 7 < cfg0.N := by rw [hN]; omega
  refine ⟨⟨8 * ((i 0).val / 512) + 7, hlt⟩, (flush0_2 _).mpr (by show (8 * ((i 0).val / 512) + 7) % 8 = 7; omega), ?_⟩
  rw [mem_blk]
  obtain ⟨e0, e1⟩ := idx2 ⟨8 * ((i 0).val / 512) + 7, hlt⟩
  intro a
  match a with
  | ⟨0, _⟩ =>
    show win0_2.index ⟨8 * ((i 0).val / 512) + 7, hlt⟩ (0 : Fin 2) * 512 ≤ (i 0).val
      ∧ (i 0).val < win0_2.index ⟨8 * ((i 0).val / 512) + 7, hlt⟩ (0 : Fin 2) * 512 + 512
    rw [e0]; show (8 * ((i 0).val / 512) + 7) / 8 * 512 ≤ (i 0).val ∧ (i 0).val < (8 * ((i 0).val / 512) + 7) / 8 * 512 + 512
    omega
  | ⟨1, _⟩ =>
    show win0_2.index ⟨8 * ((i 0).val / 512) + 7, hlt⟩ (1 : Fin 2) * 30 ≤ (i 1).val
      ∧ (i 1).val < win0_2.index ⟨8 * ((i 0).val / 512) + 7, hlt⟩ (1 : Fin 2) * 30 + 30
    rw [e1]; omega

/-- So the pallas_call's result array ends holding the histogram in natural bin order. -/
theorem final (c : Dev nD) : (dats m 0 c).arrAt 2 cfg0.N = Cert.Hist.hist (xin m c) :=
  (dats m 0 c).arrAt_eq_of_cover 2 (Cert.Hist.hist (xin m c)) (fun t hf => flushed_eq m c t hf) (fun i => cover i)

end Cert.KernelIdeal.Final

end
-- ==== Proof.RefRun.lean ====
/-
  The reference program's run, read back: its 52 host operations as one list, and what every execution leaves in the
  result buffer, as a function of the input array.

  The reference computes, for every entry x[r,c], a bin k (subtract -6, divide by the bin width, floor, clip to
  [-1, 28], convert to a 32-bit integer, add one); pairs it with the row number r in an index array of shape
  [4096,16384,2]; adds 1.0 at (r, k) into a zero array of shape [4096,30] for every (r, c); and finally reads the
  30 columns back in the order 0, 29, 1, …, 28. Both index planes pass through the usual normalisation of negative
  indices (add the extent where the index is negative) on the way.
-/
import proofs.«176800_j81965155877403_2_alg».proof.ReferenceIdeal
import proofs.«176800_j81965155877403_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two index planes of shape [4096,16384,1] laid side by side on the last axis. -/
def cat2 (a b : IVec S4096x16384x1 32) : IVec S4096x16384x2 32 :=
  concatenate S4096x16384x2 2 [⟨S4096x16384x1, a⟩, ⟨S4096x16384x1, b⟩] concatenates_S4096x16384x1_S4096x16384x1_S4096x16384x2_d2

/-- The reference's 52 host operations, in order: @main's own, and at the call of the clipping function that
    function's six (its scalar bound converted, broadcast, the maximum; the integer bound converted, broadcast,
    the minimum) over the call's own buffers. -/
abbrev ops : List (HloOp τ sig (Elt F)) :=
  [ nullary main_c (fun i => lit0 (S30.rowMajor i)),
    nullary main_c_0 (constantI S30 1 0#1),
    nullary main_cst (constant S_ .f32 0xC0C00000#32),
    unary main_cst main_v0 (broadcastInDim S4096x16384 ![] bcast_S_S4096x16384 : (⟨S_, .f32⟩ : BufTy).Contents (Elt F) → (⟨S4096x16384, .f32⟩ : BufTy).Contents (Elt F)),
    binary main_arg0 main_v0 main_v1 (subf : (⟨S4096x16384, .f32⟩ : BufTy).Contents (Elt F) → (⟨S4096x16384, .f32⟩ : BufTy).Contents (Elt F) → (⟨S4096x16384, .f32⟩ : BufTy).Contents (Elt F)),
    nullary main_cst_1 (constant S_ .f32 0x3EDB6DB7#32),
    unary main_cst_1 main_v2 (broadcastInDim S4096x16384 ![] bcast_S_S4096x16384 : (⟨S_, .f32⟩ : BufTy).Contents (Elt F) → (⟨S4096x16384, .f32⟩ : BufTy).Contents (Elt F)),
    binary main_v1 main_v2 main_v3 (Host.divf : (⟨S4096x16384, .f32⟩ : BufTy).Contents (Elt F) → (⟨S4096x16384, .f32⟩ : BufTy).Contents (Elt F) → (⟨S4096x16384, .f32⟩ : BufTy).Contents (Elt F)),
    unary main_v3 main_v4 (Host.floor : (⟨S4096x16384, .f32⟩ : BufTy).Contents (Elt F) → (⟨S4096x16384, .f32⟩ : BufTy).Contents (Elt F)),
    nullary main_cst_2 (constant S_ .f32 0xBF800000#32),
    nullary main_c_3 (constantI S_ 32 28#32),
    TRef.unary (.of main_cst_2) main_call0.v0 id,
    TRef.unary main_call0.v0 main_call0.v1 (broadcastInDim S4096x16384 ![] bcast_S_S4096x16384),
    TRef.binary main_call0.v1 (.of main_v4) main_call0.v2 maximumf,
    TRef.unary (.of main_c_3) main_call0.v3 (sitofp .f32),
    TRef.unary main_call0.v3 main_call0.v4 (broadcastInDim S4096x16384 ![] bcast_S_S4096x16384),
    TRef.binary main_call0.v4 main_call0.v2 main_call0.v5 minimumf,
    unary main_v5 main_v6 (fptosi 32 : (⟨S4096x16384, .f32⟩ : BufTy).Contents (Elt F) → (⟨S4096x16384, .i32⟩ : BufTy).Contents (Elt F)),
    nullary main_c_4 (constantI S_ 32 1#32),
    unary main_c_4 main_v7 (broadcastInDim S4096x16384 ![] bcast_S_S4096x16384 : (⟨S_, .i32⟩ : BufTy).Contents (Elt F) → (⟨S4096x16384, .i32⟩ : BufTy).Contents (Elt F)),
    binary main_v6 main_v7 main_v8 (addi : (⟨S4096x16384, .i32⟩ : BufTy).Contents (Elt F) → (⟨S4096x16384, .i32⟩ : BufTy).Contents (Elt F) → (⟨S4096x16384, .i32⟩ : BufTy).Contents (Elt F)),
    nullary main_v9 (iotaInDim S4096 32 0),
    unary main_v9 main_v10 (broadcastInDim S4096x1 ![0] bcast_S4096_S4096x1_0 : (⟨S4096, .i32⟩ : BufTy).Contents (Elt F) → (⟨S4096x1, .i32⟩ : BufTy).Contents (Elt F)),
    nullary main_cst_5 (constant S_ .f32 0x00000000#32),
    unary main_cst_5 main_v11 (broadcastInDim S4096x30 ![] bcast_S_S4096x30 : (⟨S_, .f32⟩ : BufTy).Contents (Elt F) → (⟨S4096x30, .f32⟩ : BufTy).Contents (Elt F)),
    nullary main_c_6 (constantI S_ 32 0#32),
    unary main_c_6 main_v12 (broadcastInDim S4096x1 ![] bcast_S_S4096x1 : (⟨S_, .i32⟩ : BufTy).Contents (Elt F) → (⟨S4096x1, .i32⟩ : BufTy).Contents (Elt F)),
    binary main_v10 main_v12 main_v13 (cmpi .slt : (⟨S4096x1, .i32⟩ : BufTy).Contents (Elt F) → (⟨S4096x1, .i32⟩ : BufTy).Contents (Elt F) → (⟨S4096x1, .i1⟩ : BufTy).Contents (Elt F)),
    nullary main_c_7 (constantI S_ 32 4096#32),
    unary main_c_7 main_v14 (broadcastInDim S4096x1 ![] bcast_S_S4096x1 : (⟨S_, .i32⟩ : BufTy).Contents (Elt F) → (⟨S4096x1, .i32⟩ : BufTy).Contents (Elt F)),
    binary main_v10 main_v14 main_v15 (addi : (⟨S4096x1, .i32⟩ : BufTy).Contents (Elt F) → (⟨S4096x1, .i32⟩ : BufTy).Contents (Elt F) → (⟨S4096x1, .i32⟩ : BufTy).Contents (Elt F)),
    ternary main_v13 main_v15 main_v10 main_v16 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_8 (constantI S_ 32 0#32),
    unary main_c_8 main_v17 (broadcastInDim S4096x16384 ![] bcast_S_S4096x16384 : (⟨S_, .i32⟩ : BufTy).Contents (Elt F) → (⟨S4096x16384, .i32⟩ : BufTy).Contents (Elt F)),
    binary main_v8 main_v17 main_v18 (cmpi .slt : (⟨S4096x16384, .i32⟩ : BufTy).Contents (Elt F) → (⟨S4096x16384, .i32⟩ : BufTy).Contents (Elt F) → (⟨S4096x16384, .i1⟩ : BufTy).Contents (Elt F)),
    nullary main_c_9 (constantI S_ 32 30#32),
    unary main_c_9 main_v19 (broadcastInDim S4096x16384 ![] bcast_S_S4096x16384 : (⟨S_, .i32⟩ : BufTy).Contents (Elt F) → (⟨S4096x16384, .i32⟩ : BufTy).Contents (Elt F)),
    binary main_v8 main_v19 main_v20 (addi : (⟨S4096x16384, .i32⟩ : BufTy).Contents (Elt F) → (⟨S4096x16384, .i32⟩ : BufTy).Contents (Elt F) → (⟨S4096x16384, .i32⟩ : BufTy).Contents (Elt F)),
    ternary main_v18 main_v20 main_v8 main_v21 (select : (⟨S4096x16384, .i1⟩ : BufTy).Contents (Elt F) → (⟨S4096x16384, .i32⟩ : BufTy).Contents (Elt F) → (⟨S4096x16384, .i32⟩ : BufTy).Contents (Elt F) → (⟨S4096x16384, .i32⟩ : BufTy).Contents (Elt F)),
    unary main_v16 main_v22 (broadcastInDim S4096x16384 ![0, 1] bcast_S4096x1_S4096x16384_0_1 : (⟨S4096x1, .i32⟩ : BufTy).Contents (Elt F) → (⟨S4096x16384, .i32⟩ : BufTy).Contents (Elt F)),
    unary main_v22 main_v23 (broadcastInDim S4096x16384x1 ![0, 1] bcast_S4096x16384_S4096x16384x1_0_1 : (⟨S4096x16384, .i32⟩ : BufTy).Contents (Elt F) → (⟨S4096x16384x1, .i32⟩ : BufTy).Contents (Elt F)),
    unary main_v21 main_v24 (broadcastInDim S4096x16384x1 ![0, 1] bcast_S4096x16384_S4096x16384x1_0_1 : (⟨S4096x16384, .i32⟩ : BufTy).Contents (Elt F) → (⟨S4096x16384x1, .i32⟩ : BufTy).Contents (Elt F)),
    binary main_v23 main_v24 main_v25 (cat2 : (⟨S4096x16384x1, .i32⟩ : BufTy).Contents (Elt F) → (⟨S4096x16384x1, .i32⟩ : BufTy).Contents (Elt F) → (⟨S4096x16384x2, .i32⟩ : BufTy).Contents (Elt F)),
    nullary main_cst_10 (constant S_ .f32 0x3F800000#32),
    unary main_cst_10 main_v26 (broadcastInDim S4096x16384 ![] bcast_S_S4096x16384 : (⟨S_, .f32⟩ : BufTy).Contents (Elt F) → (⟨S4096x16384, .f32⟩ : BufTy).Contents (Elt F)),
    ternary main_v11 main_v25 main_v26 main_v27 ((fun x i u => Host.scatterAdd scatter_S4096x30_S4096x16384x2_S4096x16384_n_01_01_2 x i u) : (⟨S4096x30, .f32⟩ : BufTy).Contents (Elt F) → (⟨S4096x16384x2, .i32⟩ : BufTy).Contents (Elt F) → (⟨S4096x16384, .f32⟩ : BufTy).Contents (Elt F) → (⟨S4096x30, .f32⟩ : BufTy).Contents (Elt F)),
    nullary main_c_11 (constantI S_ 32 30#32),
    unary main_c_11 main_v28 (broadcastInDim S30 ![] bcast_S_S30 : (⟨S_, .i32⟩ : BufTy).Contents (Elt F) → (⟨S30, .i32⟩ : BufTy).Contents (Elt F)),
    binary main_c main_v28 main_v29 (addi : (⟨S30, .i32⟩ : BufTy).Contents (Elt F) → (⟨S30, .i32⟩ : BufTy).Contents (Elt F) → (⟨S30, .i32⟩ : BufTy).Contents (Elt F)),
    ternary main_c_0 main_v29 main_c main_v30 (select : (⟨S30, .i1⟩ : BufTy).Contents (Elt F) → (⟨S30, .i32⟩ : BufTy).Contents (Elt F) → (⟨S30, .i32⟩ : BufTy).Contents (Elt F) → (⟨S30, .i32⟩ : BufTy).Contents (Elt F)),
    unary main_v30 main_v31 (broadcastInDim S30x1 ![0] bcast_S30_S30x1_0 : (⟨S30, .i32⟩ : BufTy).Contents (Elt F) → (⟨S30x1, .i32⟩ : BufTy).Contents (Elt F)),
    binary main_v27 main_v31 main_v32 ((fun x i => Host.gather gather_S4096x30_S30x1_S4096x30_0_1_n_n_1_1_40961 x i) : (⟨S4096x30, .f32⟩ : BufTy).Contents (Elt F) → (⟨S30x1, .i32⟩ : BufTy).Contents (Elt F) → (⟨S4096x30, .f32⟩ : BufTy).Contents (Elt F)) ]

-- fifty-two binds re-associated: the rewrite under the chain recurses once per statement
set_option maxRecDepth 1024 in
/-- @main is that straight line: the clipping function's definition unfolded at its call and the call's record at
    its fields, both sides are one chain of steps once sequencing is reassociated. -/
theorem main_eq (c : Dev nD) : main (F := F) c = seq ops := by
  simp only [main, fn_clip.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., binary_bufs_sub .., ternary_bufs_sub .., unary_bufs_sub .., binary_bufs_sub ..⟩

/-! ## The composed values -/

/-- The clipped bin coordinate of every entry, still a float array: the floor of (x + 6) / w, held between -1 and
    28 (the upper bound an integer constant converted to a float). -/
def refClip (x : S4096x16384.Idx → EReal) : S4096x16384.Idx → EReal :=
  minimumf (F := Ideal) (φ := .f32)
    (broadcastInDim S4096x16384 ![] bcast_S_S4096x16384 (sitofp (F := Ideal) .f32 (constantI S_ 32 28#32)))
    (maximumf (F := Ideal) (φ := .f32)
      (broadcastInDim S4096x16384 ![] bcast_S_S4096x16384 (constant (F := Ideal) S_ .f32 0xBF800000#32))
      (Host.floor (F := Ideal) (φ := .f32)
        (Host.divf (F := Ideal) (φ := .f32)
          (subf (F := Ideal) (φ := .f32) x
            (broadcastInDim S4096x16384 ![] bcast_S_S4096x16384 (constant (F := Ideal) S_ .f32 0xC0C00000#32)))
          (broadcastInDim S4096x16384 ![] bcast_S_S4096x16384 (constant (F := Ideal) S_ .f32 0x3EDB6DB7#32)))))

/-- The bin of every entry: the clipped coordinate as a 32-bit integer, plus one. -/
def refBins (x : S4096x16384.Idx → EReal) : IVec S4096x16384 32 :=
  addi (fptosi (F := Ideal) (φ := .f32) 32 (refClip x))
    (broadcastInDim S4096x16384 ![] bcast_S_S4096x16384 (constantI S_ 32 1#32))

/-- The bins after the normalisation of negative indices: 30 added where a bin is negative. -/
def refBinsN (x : S4096x16384.Idx → EReal) : IVec S4096x16384 32 :=
  select (cmpi .slt (refBins x) (broadcastInDim S4096x16384 ![] bcast_S_S4096x16384 (constantI S_ 32 0#32)))
    (addi (refBins x) (broadcastInDim S4096x16384 ![] bcast_S_S4096x16384 (constantI S_ 32 30#32)))
    (refBins x)

/-- The row numbers as a column [4096,1], after the same normalisation: 4096 added where a row number is negative. -/
def refRows : IVec S4096x1 32 :=
  select
    (cmpi .slt (broadcastInDim S4096x1 ![0] bcast_S4096_S4096x1_0 (iotaInDim S4096 32 0))
      (broadcastInDim S4096x1 ![] bcast_S_S4096x1 (constantI S_ 32 0#32)))
    (addi (broadcastInDim S4096x1 ![0] bcast_S4096_S4096x1_0 (iotaInDim S4096 32 0))
      (broadcastInDim S4096x1 ![] bcast_S_S4096x1 (constantI S_ 32 4096#32)))
    (broadcastInDim S4096x1 ![0] bcast_S4096_S4096x1_0 (iotaInDim S4096 32 0))

/-- The start-index array the reference scatters with (the value of main_v25), as a function of the input array:
    at (r, c) the pair (row number, bin of x[r,c]). -/
def refIdx (x : S4096x16384.Idx → EReal) : IVec S4096x16384x2 32 :=
  cat2
    (broadcastInDim S4096x16384x1 ![0, 1] bcast_S4096x16384_S4096x16384x1_0_1
      (broadcastInDim S4096x16384 ![0, 1] bcast_S4096x1_S4096x16384_0_1 refRows))
    (broadcastInDim S4096x16384x1 ![0, 1] bcast_S4096x16384_S4096x16384x1_0_1 (refBinsN x))

/-- What the reference scatters: ones at refIdx into zeros (the value of main_v27). -/
def refScatter (x : S4096x16384.Idx → EReal) : S4096x30.Idx → EReal :=
  Host.scatterAdd (F := Ideal) (φ := .f32) scatter_S4096x30_S4096x16384x2_S4096x16384_n_01_01_2
    (broadcastInDim S4096x30 ![] bcast_S_S4096x30 (constant (F := Ideal) S_ .f32 0x00000000#32))
    (refIdx x)
    (broadcastInDim S4096x16384 ![] bcast_S_S4096x16384 (constant (F := Ideal) S_ .f32 0x3F800000#32))

/-- What @main does to the scatter's result: the gather of its columns in the order 0, 29, 1, ..., 28 (main_c ..
    main_v32 after main_v27). -/
def refTail (h : S4096x30.Idx → EReal) : S4096x30.Idx → EReal :=
  Host.gather gather_S4096x30_S30x1_S4096x30_0_1_n_n_1_1_40961 h
    (broadcastInDim S30x1 ![0] bcast_S30_S30x1_0
      (select (constantI S30 1 0#1)
        (addi (fun i => lit0 (S30.rowMajor i)) (broadcastInDim S30 ![] bcast_S_S30 (constantI S_ 32 30#32)))
        (fun i => lit0 (S30.rowMajor i))))

/-! ## The run -/

/-- The fold of the 52 operations at the result buffer is the composed term: the one pass over the operations' result
    lemmas leaves the term the definitions above spell, the transports along the call's typed references the identity. -/
theorem out_eq (V : Valuation τ sig (Elt Ideal)) :
    after ops V (main_v32 : DevRef τ sig) = refTail (refScatter (V (main_arg0 : DevRef τ sig))) := by
  after_results_simp
  rfl

/-- The argument's buffer is written by no operation. -/
theorem arg0_eq (V : Valuation τ sig (Elt Ideal)) :
    after ops V (main_arg0 : DevRef τ sig) = V (main_arg0 : DevRef τ sig) := by
  after_results_simp

/-- From any memory with zero counters, every weakly fair execution of @main terminates with the result buffer at the
    gather of the scatter of ones at the index array of the input, and the input unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = refTail (refScatter (m ((c.tc : Thread nD τ).loc main_arg0)))
      ∧ r.2.mem ((c.tc : Thread nD τ).loc main_arg0) = m ((c.tc : Thread nD τ).loc main_arg0)) :=
  (θ_run defs _ _).mono (fun _ h c => ⟨(h c main_v32).trans (out_eq _), (h c main_arg0).trans (arg0_eq _)⟩)
    (run_seq scopedRefs_eq scopedSems_eq defs main (fun _ => ops) main_eq (fun _ => ops_sub) m ρ)

end Cert.ReferenceIdeal.RefValue

end
-- ==== Proof.Tail.lean ====
/-
  The two programs end alike.

  After its histogram is computed, each program reads the 30 columns back in the order 0, 29, 1, …, 28 by the same
  gather, through the same normalisation of its (constant, never negative) column numbers. The two texts differ only
  in which program's constants they name: the same shapes, the same table of 30 column numbers, and dimension records
  with the same fields.
-/
import proofs.«176800_j81965155877403_2_alg».proof.KernelIdeal
import proofs.«176800_j81965155877403_2_alg».proof.Proof.Gen.KernelIdeal
import proofs.«176800_j81965155877403_2_alg».proof.Proof.RefRun

noncomputable section

namespace Cert.KernelIdeal.Final

open Cert.KernelIdeal Cert.KernelIdeal.Gen Idealize.ShloMosaic

/-- What the kernel's @main does to the pallas_call's result: the same gather of columns. -/
def kTail (h : S4096x30.Idx → EReal) : S4096x30.Idx → EReal :=
  Host.gather gather_S4096x30_S30x1_S4096x30_0_1_n_n_1_1_40961 h
    (broadcastInDim S30x1 ![0] bcast_S30_S30x1_0
      (select (constantI S30 1 0#1)
        (addi (fun i => lit0 (S30.rowMajor i)) (broadcastInDim S30 ![] bcast_S_S30 (constantI S_ 32 30#32)))
        (fun i => lit0 (S30.rowMajor i))))

/-- The two programs' tables of column numbers are the same 30 words. -/
theorem lit0_eq : (Cert.KernelIdeal.lit0 : Fin 30 → BitVec 32) = Cert.ReferenceIdeal.lit0 := by
  funext i; fin_cases i <;> rfl

/-- The two programs' gather dimension records have the same fields. -/
theorem gather_eq :
    Cert.KernelIdeal.gather_S4096x30_S30x1_S4096x30_0_1_n_n_1_1_40961
      = Cert.ReferenceIdeal.gather_S4096x30_S30x1_S4096x30_0_1_n_n_1_1_40961 := rfl

/-- The kernel program's tail is the reference's. -/
theorem kTail_eq (h : S4096x30.Idx → EReal) : kTail h = Cert.ReferenceIdeal.RefValue.refTail h := by
  unfold kTail Cert.ReferenceIdeal.RefValue.refTail
  rw [lit0_eq, gather_eq]

end Cert.KernelIdeal.Final

end
-- ==== Proof.KRun.lean ====
/-
  The kernel program's run read through its host tail.

  The generated frame certificate leaves, after every execution, each array of the pipeline at what the proof data
  compute and every other unscoped buffer at the fold of the six host operations after the region over the core's
  contents as the region leaves them. Reading that fold at the result buffer: the six operations are the gather of
  columns applied to the pipeline's output array (window 2) and to the two constant tables written before the region,
  which the region and the later operations leave alone.
-/
import proofs.«176800_j81965155877403_2_alg».proof.Proof.Gen.KernelIdeal.Frame
import proofs.«176800_j81965155877403_2_alg».proof.Proof.Tail
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The six operations after the region, folded over ANY contents of the core's buffers, leave in the result buffer the
    gather of columns of whatever the output array holds, provided the two constant tables hold their constants. -/
theorem tail_after (W : Valuation τ sig (Elt Ideal)) (G : S4096x30.Idx → EReal)
    (h1 : W (Proc.devRef .tc main_v1) = G)
    (hc : W (Proc.devRef .tc main_c) = fun i => lit0 (S30.rowMajor i))
    (hc0 : W (Proc.devRef .tc main_c_0) = constantI S30 1 0#1) :
    StableHlo.after hostOps1 W (Proc.devRef .tc main_v6) = kTail G := by
  after_results
  rw [h1, hc, hc0]
  rfl

/-- The table of column numbers, written before the region, as the region finds it. -/
theorem V0_main_c (c : Dev nD) : V0 m c (Proc.devRef .tc main_c) = fun i => lit0 (S30.rowMajor i) := by
  show StableHlo.after hostOps0 _ (Proc.devRef .tc main_c) = _
  after_results
  all_goals rfl

/-- The table of (all false) conditions, written before the region, as the region finds it. -/
theorem V0_main_c_0 (c : Dev nD) : V0 m c (Proc.devRef .tc main_c_0) = constantI S30 1 0#1 := by
  show StableHlo.after hostOps0 _ (Proc.devRef .tc main_c_0) = _
  after_results
  all_goals rfl

/-- THE TAIL OF THE KERNEL PROGRAM: whatever the pipeline's output array holds at the end of the region, the result buffer
    holds its gather of columns. -/
theorem tail_of (c : Dev nD) (G : S4096x30.Idx → EReal) (hfin : (dats m 0 c).arrAt 2 cfg0.N = G) :
    Pipeline.afterTail₀ cfgs (dats m) 0 (V0 m) [hostOps1] c main_v6 = kTail G := by
  unfold Pipeline.afterTail₀
  refine tail_after _ G ?_ ?_ ?_
  · exact (Pipeline.withArrays_arr spec0 launch0.win.arr_inj c _ _ 2).trans hfin
  · exact (Pipeline.withArrays_of_ne spec0 c _ _ main_c (by decide)).trans (V0_main_c m c)
  · exact (Pipeline.withArrays_of_ne spec0 c _ _ main_c_0 (by decide)).trans (V0_main_c_0 m c)

/-- From any memory with zero counters, every weakly fair execution of the kernel program terminates with the result buffer
    at the gather of columns of the pipeline's output array, and the input unchanged. -/
theorem run_of (G : Dev nD → S4096x30.Idx → EReal) (hfin : ∀ c, (dats m 0 c).arrAt 2 cfg0.N = G c) :
    θ_run (defs (F := Ideal)) (onTc (τ := τ) (main (F := Ideal))) ⟨m, fun _ => 0, ρ⟩ (fun r => ∀ c : Dev nD,
      r.2.mem ((c.tc : Thread nD τ).loc main_v6) = kTail (G c)
      ∧ r.2.mem ((c.tc : Thread nD τ).loc main_arg0) = m ((c.tc : Thread nD τ).loc main_arg0)) :=
  (θ_run defs _ _).mono (fun _ h c =>
      ⟨((h c).2 main_v6 (Pipeline.mem_restRefs_of main_v6 rfl (by decide))).trans (tail_of m c (G c) (hfin c)),
        ((h c).1 0).trans (((dats m 0 c).arrAt_in 0 rfl _).trans ((A_eq m c 0).trans (V_main_arg0 m c)))⟩)
    (run_main m ρ)

end Cert.KernelIdeal.Final

end
-- ==== Proof.RefIdx.lean ====
/-
  The reference's scatter index array read at an index: at (r, c) its first component is the row number r and its
  second the bin of x[r,c].

  Both are layout reads — the last-axis concatenation of two planes, each a broadcast of a [4096,16384] array with a
  unit axis appended, the row plane itself a broadcast of a column of row numbers — followed by the observation that
  the normalisation of negative indices never fires: a row number below 4096 is not negative as a 32-bit signed
  integer, and a bin lies in [0, 29].
-/
import proofs.«176800_j81965155877403_2_alg».proof.Proof.RefRun
import proofs.«176800_j81965155877403_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Words -/

/-- A 32-bit word that is not negative as a signed integer is "not below zero": the comparison's bit is 0. -/
theorem cmpi_slt_zero_of_nonneg (B : BitVec 32) (h : 0 ≤ B.toInt) : IntOp.cmpi .slt B 0#32 = 0#1 := by
  have hs : B.slt 0#32 = false := by
    rw [BitVec.slt_eq_decide, BitVec.toInt_zero]
    exact decide_eq_false (by omega)
  show BitVec.ofBool (B.slt 0#32) = 0#1
  rw [hs]; rfl

/-- A row number below 4096, as a 32-bit word, reads back as itself when read signed. -/
theorem toInt_ofNat_row (r : Fin 4096) : (BitVec.ofNat 32 r.val).toInt = (r.val : Int) := by
  have h := r.isLt
  have hn : (BitVec.ofNat 32 r.val).toNat = r.val := by
    rw [BitVec.toNat_ofNat]; exact Nat.mod_eq_of_lt (by omega)
  rw [BitVec.toInt_eq_toNat_of_lt (by rw [hn]; omega), hn]

/-- The float pattern 0x41E00000 is 28. -/
theorem ofBits_28 : Ideal.ofBits .f32 0x41E00000#32 = ((28 : ℝ) : EReal) := by
  simp [Ideal.ofBits, Ideal.ieee, -EReal.coe_mul]; norm_num

/-- The integer constant 28 converted to a float is the float constant 28. -/
theorem sitofp_28 : ((((28#32 : BitVec 32).toInt : Int) : ℝ) : EReal) = Ideal.ofBits .f32 0x41E00000#32 := by
  have h : (28#32 : BitVec 32).toInt = 28 := by decide
  rw [ofBits_28, h]; norm_num

/-! ## The row plane -/

/-- The column of row numbers at row r is r: the normalisation adds nothing, r being non-negative. -/
theorem refRows_apply (r : Fin 4096) : refRows (ix2 r (0 : Fin 1)) = BitVec.ofNat 32 r.val := by
  have hb : broadcastInDim S4096x1 ![0] bcast_S4096_S4096x1_0 (iotaInDim S4096 32 0) (ix2 r (0 : Fin 1))
      = BitVec.ofNat 32 r.val := by
    refine (broadcastInDim_apply _ _ _ _ (ix1 r) ?_).trans rfl
    intro a; match a with | ⟨0, _⟩ => rfl
  unfold refRows
  show Scalar.select
      (IntOp.cmpi .slt (broadcastInDim S4096x1 ![0] bcast_S4096_S4096x1_0 (iotaInDim S4096 32 0) (ix2 r (0 : Fin 1))) 0#32)
      (IntOp.addi (broadcastInDim S4096x1 ![0] bcast_S4096_S4096x1_0 (iotaInDim S4096 32 0) (ix2 r (0 : Fin 1))) 4096#32)
      (broadcastInDim S4096x1 ![0] bcast_S4096_S4096x1_0 (iotaInDim S4096 32 0) (ix2 r (0 : Fin 1))) = _
  rw [hb, cmpi_slt_zero_of_nonneg _ (by rw [toInt_ofNat_row]; omega), select_zero]

/-- THE FIRST COMPONENT of the index array at (r, c) is the row number. -/
theorem refIdx_row (x : S4096x16384.Idx → EReal) (r : Fin 4096) (c : Fin 16384) :
    refIdx x (ix3 r c (0 : Fin 2)) = BitVec.ofNat 32 r.val := by
  unfold refIdx cat2
  refine (concatenate_pair_apply_left (t := S4096x16384x2) (s₁ := S4096x16384x1) (s₂ := S4096x16384x1) (2 : Fin 3) _ _ _
    (ix3 r c (0 : Fin 2)) rfl (ix3 r c (0 : Fin 1)) ?_).trans ?_
  · intro b; match b with | ⟨0, _⟩ => rfl | ⟨1, _⟩ => rfl | ⟨2, _⟩ => rfl
  · refine (broadcastInDim_apply _ _ _ _ (ix2 r c) ?_).trans ?_
    · intro a; match a with | ⟨0, _⟩ => rfl | ⟨1, _⟩ => rfl
    · refine (broadcastInDim_apply _ _ _ _ (ix2 r (0 : Fin 1)) ?_).trans (refRows_apply r)
      intro a; match a with | ⟨0, _⟩ => rfl | ⟨1, _⟩ => rfl

/-! ## The bin plane -/

/-- The reference's bin of the entry at (r, c) is the specification's bin of that entry: each vector operation read at
    the index is the extended reals' operation, and the integer bound 28 converted to a float is the float 28. -/
theorem refBins_apply (x : S4096x16384.Idx → EReal) (r : Fin 4096) (c : Fin 16384) :
    refBins x (ix2 r c) = Cert.Hist.binOf (x (ix2 r c)) := by
  unfold refBins refClip Cert.Hist.binOf Cert.Hist.clipOf
  show Ideal.fptosi 32 (min ((((28#32 : BitVec 32).toInt : Int) : ℝ) : EReal)
      (max (Ideal.ofBits .f32 0xBF800000#32)
        (Ideal.liftRound Int.floor (Ideal.div (x (ix2 r c) - Ideal.ofBits .f32 0xC0C00000#32) (Ideal.ofBits .f32 0x3EDB6DB7#32)))))
      + 1#32 = _
  rw [sitofp_28]

/-- After the normalisation too: a bin is never negative, so 30 is never added. -/
theorem refBinsN_apply (x : S4096x16384.Idx → EReal) (r : Fin 4096) (c : Fin 16384) :
    refBinsN x (ix2 r c) = Cert.Hist.binOf (x (ix2 r c)) := by
  unfold refBinsN
  show Scalar.select (IntOp.cmpi .slt (refBins x (ix2 r c)) 0#32) (IntOp.addi (refBins x (ix2 r c)) 30#32)
      (refBins x (ix2 r c)) = _
  rw [refBins_apply, cmpi_slt_zero_of_nonneg _ (Cert.Hist.binOf_range _).1, select_zero]

/-- THE SECOND COMPONENT of the index array at (r, c) is the bin of x[r,c]. -/
theorem refIdx_bin (x : S4096x16384.Idx → EReal) (r : Fin 4096) (c : Fin 16384) :
    refIdx x (ix3 r c (1 : Fin 2)) = Cert.Hist.binOf (x (ix2 r c)) := by
  unfold refIdx cat2
  refine (concatenate_pair_apply_right (t := S4096x16384x2) (s₁ := S4096x16384x1) (s₂ := S4096x16384x1) (2 : Fin 3) _ _ _
    (ix3 r c (1 : Fin 2)) rfl rfl (ix3 r c (0 : Fin 1)) ?_ ?_).trans ?_
  · intro b hb
    match b, hb with
    | ⟨0, _⟩, _ => rfl
    | ⟨1, _⟩, _ => rfl
    | ⟨2, _⟩, hb => exact absurd rfl hb
  · rfl
  · refine (broadcastInDim_apply _ _ _ _ (ix2 r c) ?_).trans (refBinsN_apply x r c)
    intro a; match a with | ⟨0, _⟩ => rfl | ⟨1, _⟩ => rfl

end Cert.ReferenceIdeal.RefValue

end
-- ==== Proof.LibScatterPairs.lean ====
/-
  A scatter-add whose start indices have TWO components, read at one entry.

  The operand has shape [N, C]; the scatter indices have shape [E1, E2, 2], their last axis holding the
  index vector; the updates have shape [E1, E2]. Both operand axes are inserted window axes (a window is a
  single element), and component c of the index vector is the start on operand axis c. Update (e1, e2)
  therefore lands at the operand entry (I0, I1), where I0 = idx[e1, e2, 0] and I1 = idx[e1, e2, 1] are read
  as signed integers and NOT clamped; it is dropped when (I0, I1) lies outside [0, N) x [0, C).

  `lands_iff`: update (e1, e2) lands at the entry (n, k) exactly when I0 = n and I1 = k (an entry (n, k)
  of the operand is inside it, so the bounds need no separate mention).
  `scatterAdd_pairs`: the exact scatter-add at the entry (n, k) is the operand's value there plus the
  double sum, over all updates (e1, e2), of the update's value where (I0, I1) = (n, k) and of 0 elsewhere.

  The four sizes N, C, E1, E2 and the index width w are arbitrary: nothing here computes with them.
-/
import Idealize.ShloMosaic.Lib.ValueIdx
import Idealize.ShloMosaic.PureOps.Ideal.Laws

noncomputable section

open scoped BigOperators

namespace Cert.ScatterPairs

open Idealize.ShloMosaic Idealize.ShloMosaic.ValueIdx

variable {N C E1 E2 : Nat}

/-- With both operand axes inserted, no operand axis is kept for a window, so the window coordinate is 0
    on each axis. -/
theorem window_zero (d : ScatterDims ⟨2, ![N, C]⟩ ⟨3, ![E1, E2, 2]⟩ ⟨2, ![E1, E2]⟩)
    (h2 : d.insertedWindowDims = [0, 1]) (j : (⟨2, ![E1, E2]⟩ : Shape).Idx) (a : Fin 2) :
    d.window j a = 0 := by
  obtain ⟨uw, iw, sd, iv, wf⟩ := d
  subst h2
  unfold ScatterDims.window
  rw [dif_neg]
  intro hmem
  have h := (List.mem_filter.1 hmem).2
  match a with
  | ⟨0, _⟩ => simp at h
  | ⟨1, _⟩ => simp at h

/-- The place in the scatter indices where update (e1, e2) reads component c of its start index is
    (e1, e2, c): with no window axes both update axes are scatter axes, and they are the scatter indices'
    first two axes in order; the index vector lies along the third. -/
theorem siIdx_eq (d : ScatterDims ⟨2, ![N, C]⟩ ⟨3, ![E1, E2, 2]⟩ ⟨2, ![E1, E2]⟩)
    (h1 : d.updateWindowDims = []) (h4 : d.indexVectorDim = 2) (e1 : Fin E1) (e2 : Fin E2)
    (c : Fin d.scatterDimsToOperandDims.length) (c' : Fin 2) (hc : c.val = c'.val) :
    d.siIdx (ix2 e1 e2) c = ix3 e1 e2 c' := by
  obtain ⟨uw, iw, sd, iv, wf⟩ := d
  subst h1 h4
  funext b
  match b with
  | ⟨0, _⟩ => rfl
  | ⟨1, _⟩ => rfl
  | ⟨2, _⟩ => exact Fin.ext hc

/-- The start on operand axis a for update (e1, e2) is idx[e1, e2, a], read signed: axis a is the a-th
    entry of the map from index-vector components to operand axes. -/
theorem start_eq (d : ScatterDims ⟨2, ![N, C]⟩ ⟨3, ![E1, E2, 2]⟩ ⟨2, ![E1, E2]⟩)
    (h1 : d.updateWindowDims = []) (h3 : d.scatterDimsToOperandDims = [0, 1]) (h4 : d.indexVectorDim = 2)
    {w : Nat} (idx : IVec ⟨3, ![E1, E2, 2]⟩ w) (e1 : Fin E1) (e2 : Fin E2) (a : Fin 2) :
    d.start (ix2 e1 e2) idx a = (idx (ix3 e1 e2 a)).toInt := by
  unfold ScatterDims.start
  have ha : a ∈ d.scatterDimsToOperandDims := by
    rw [h3]
    match a with
    | ⟨0, _⟩ => simp
    | ⟨1, _⟩ => simp
  rw [dif_pos ha]
  congr 2
  apply siIdx_eq d h1 h4
  show List.idxOf a d.scatterDimsToOperandDims = a.val
  rw [h3]
  match a with
  | ⟨0, _⟩ => rfl
  | ⟨1, _⟩ => rfl

/-- Update (e1, e2) lands at the operand entry (n, k) exactly when its two signed start components are n
    and k. Left to right: a landing update's result index is (I0 + 0, I1 + 0) with both inside the operand,
    so equality of indices is equality of the two integers. Right to left: n < N and k < C put (I0, I1)
    inside the operand, and the index built from them is (n, k). -/
theorem lands_iff (d : ScatterDims ⟨2, ![N, C]⟩ ⟨3, ![E1, E2, 2]⟩ ⟨2, ![E1, E2]⟩)
    (h1 : d.updateWindowDims = []) (h2 : d.insertedWindowDims = [0, 1])
    (h3 : d.scatterDimsToOperandDims = [0, 1]) (h4 : d.indexVectorDim = 2)
    {w : Nat} (idx : IVec ⟨3, ![E1, E2, 2]⟩ w) (e1 : Fin E1) (e2 : Fin E2) (n : Fin N) (k : Fin C) :
    d.resultIdx? (ix2 e1 e2) idx = some (ix2 n k) ↔
      (idx (ix3 e1 e2 (0 : Fin 2))).toInt = (n.val : Int) ∧ (idx (ix3 e1 e2 (1 : Fin 2))).toInt = (k.val : Int) := by
  have hw := window_zero d h2 (ix2 e1 e2)
  have hs := start_eq d h1 h3 h4 idx e1 e2
  unfold ScatterDims.resultIdx?
  constructor
  · intro h
    split at h
    · rename_i hc
      have hf := Option.some.inj h
      have h0 := congrArg Fin.val (congrFun hf (0 : Fin 2))
      have h1' := congrArg Fin.val (congrFun hf (1 : Fin 2))
      have c0 := hc (0 : Fin 2)
      have c1 := hc (1 : Fin 2)
      simp only [hw, hs] at h0 h1' c0 c1
      have h0 : ((idx (ix3 e1 e2 (0 : Fin 2))).toInt + ((0 : Nat) : Int)).toNat = n.val := h0
      have h1' : ((idx (ix3 e1 e2 (1 : Fin 2))).toInt + ((0 : Nat) : Int)).toNat = k.val := h1'
      have p0 := c0.1
      have p1 := c1.1
      constructor <;> omega
    · cases h
  · rintro ⟨ha, hb⟩
    have hc0 : 0 ≤ d.start (ix2 e1 e2) idx (0 : Fin 2) + ((d.window (ix2 e1 e2) (0 : Fin 2) : Nat) : Int) ∧
        d.start (ix2 e1 e2) idx (0 : Fin 2) + ((d.window (ix2 e1 e2) (0 : Fin 2) : Nat) : Int) < ((N : Nat) : Int) := by
      rw [hs, hw, ha]
      have := n.isLt
      omega
    have hc1 : 0 ≤ d.start (ix2 e1 e2) idx (1 : Fin 2) + ((d.window (ix2 e1 e2) (1 : Fin 2) : Nat) : Int) ∧
        d.start (ix2 e1 e2) idx (1 : Fin 2) + ((d.window (ix2 e1 e2) (1 : Fin 2) : Nat) : Int) < ((C : Nat) : Int) := by
      rw [hs, hw, hb]
      have := k.isLt
      omega
    have hc : ∀ a : Fin 2, 0 ≤ d.start (ix2 e1 e2) idx a + ((d.window (ix2 e1 e2) a : Nat) : Int) ∧
        d.start (ix2 e1 e2) idx a + ((d.window (ix2 e1 e2) a : Nat) : Int) <
          (((⟨2, ![N, C]⟩ : Shape).size a : Nat) : Int) := by
      intro a
      match a with
      | ⟨0, _⟩ => exact hc0
      | ⟨1, _⟩ => exact hc1
    rw [dif_pos hc]
    congr 1
    funext a
    match a with
    | ⟨0, _⟩ =>
      apply Fin.ext
      show (d.start (ix2 e1 e2) idx (0 : Fin 2) + ((d.window (ix2 e1 e2) (0 : Fin 2) : Nat) : Int)).toNat = n.val
      rw [hs, hw, ha]
      omega
    | ⟨1, _⟩ =>
      apply Fin.ext
      show (d.start (ix2 e1 e2) idx (1 : Fin 2) + ((d.window (ix2 e1 e2) (1 : Fin 2) : Nat) : Int)).toNat = k.val
      rw [hs, hw, hb]
      omega

/-- The exact scatter-add read at the entry (n, k): the operand's value there plus, over all updates
    (e1, e2), the update's value where its two signed start components are (n, k) and 0 elsewhere. The sum
    over the updates that land at (n, k) is the sum over all updates of an if-then-else, the rank-2 update
    index set is the product of its coordinate ranges, and `lands_iff` rewrites the condition. -/
theorem scatterAdd_pairs (d : ScatterDims ⟨2, ![N, C]⟩ ⟨3, ![E1, E2, 2]⟩ ⟨2, ![E1, E2]⟩)
    (h1 : d.updateWindowDims = []) (h2 : d.insertedWindowDims = [0, 1])
    (h3 : d.scatterDimsToOperandDims = [0, 1]) (h4 : d.indexVectorDim = 2)
    {w : Nat} (x : (⟨2, ![N, C]⟩ : Shape).Idx → EReal) (idx : IVec ⟨3, ![E1, E2, 2]⟩ w)
    (upd : (⟨2, ![E1, E2]⟩ : Shape).Idx → EReal) (n : Fin N) (k : Fin C) :
    Ideal.hostScatterAdd d x idx upd (ix2 n k) =
      x (ix2 n k) + ∑ e1 : Fin E1, ∑ e2 : Fin E2,
        if (idx (ix3 e1 e2 (0 : Fin 2))).toInt = (n.val : Int) ∧ (idx (ix3 e1 e2 (1 : Fin 2))).toInt = (k.val : Int)
        then upd (ix2 e1 e2) else 0 := by
  unfold Ideal.hostScatterAdd
  congr 1
  rw [Finset.sum_filter, sum_idx2]
  refine Finset.sum_congr rfl fun e1 _ => Finset.sum_congr rfl fun e2 _ => ?_
  exact if_congr (lands_iff d h1 h2 h3 h4 idx e1 e2 n k) rfl rfl

end Cert.ScatterPairs

end
-- ==== Proof.RefHist.lean ====
/-
  What the reference scatters is the histogram.

  The scatter adds 1 at (I0, I1) for every entry (r, c) of the input, where (I0, I1) = (r, bin of x[r,c]) is the
  index array's pair there, into an array of zeros. Read at the entry (R, b): 0 plus the sum over all (r, c) of 1
  where (r, bin of x[r,c]) = (R, b), of 0 elsewhere. Only the row r = R contributes, and within it the sum is the
  number of columns c whose entry falls into bin b — row R of the histogram at bin b.
-/
import proofs.«176800_j81965155877403_2_alg».proof.Proof.RefIdx
import proofs.«176800_j81965155877403_2_alg».proof.Proof.LibScatterPairs
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-- A natural number below 2³¹, as a 32-bit word, reads back as itself when read signed. -/
theorem toInt_ofNat_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- A 32-bit word read signed is a given number below 2³¹ exactly when it is that number's word. -/
theorem toInt_eq_iff_eq_ofNat (v : BitVec 32) (n : Nat) (h : n < 2147483648) :
    v.toInt = (n : Int) ↔ v = BitVec.ofNat 32 n := by
  rw [← toInt_ofNat_small n h]; exact BitVec.toInt_inj

/-- THE SCATTER'S RESULT IS THE HISTOGRAM: at (R, b), the zero operand plus the sum over all entries of the input of 1
    where the entry's row is R and its bin is b; the rows other than R contribute nothing, and row R contributes the
    number of its entries in bin b. -/
theorem refScatter_eq (x : S4096x16384.Idx → EReal) : refScatter x = Cert.Hist.hist x := by
  funext i
  obtain ⟨R, b, rfl⟩ : ∃ (R : Fin 4096) (b : Fin 30), i = ix2 R b := ⟨i 0, i 1, eq_ix2 i⟩
  -- the operand is zero everywhere, every update is one
  have hz : (broadcastInDim S4096x30 ![] bcast_S_S4096x30 (constant (F := Ideal) S_ .f32 0x00000000#32)) (ix2 R b) = 0 :=
    Ideal.ofBits_zero_f32
  have ho : ∀ (e1 : Fin 4096) (e2 : Fin 16384),
      (broadcastInDim S4096x16384 ![] bcast_S_S4096x16384 (constant (F := Ideal) S_ .f32 0x3F800000#32)) (ix2 e1 e2) = 1 :=
    fun _ _ => Ideal.ofBits_one_f32
  -- the two components of an update's start, read signed, against the entry's coordinates
  have hrow : ∀ e1 : Fin 4096, (BitVec.ofNat 32 e1.val).toInt = (R.val : Int) ↔ e1 = R := fun e1 => by
    rw [toInt_ofNat_small e1.val (by have := e1.isLt; omega)]
    exact ⟨fun h => Fin.ext (by omega), fun h => by rw [h]⟩
  have hbin : ∀ v : BitVec 32, v.toInt = (b.val : Int) ↔ v = BitVec.ofNat 32 b.val := fun v =>
    toInt_eq_iff_eq_ofNat v b.val (by have := b.isLt; omega)
  show Ideal.hostScatterAdd scatter_S4096x30_S4096x16384x2_S4096x16384_n_01_01_2 _ (refIdx x) _ (ix2 R b)
    = Cert.Hist.histAt x R b
  refine (Cert.ScatterPairs.scatterAdd_pairs scatter_S4096x30_S4096x16384x2_S4096x16384_n_01_01_2 rfl rfl rfl rfl
    _ _ _ R b).trans ?_
  rw [hz, zero_add, Finset.sum_eq_single R]
  · unfold Cert.Hist.histAt
    refine Finset.sum_congr rfl fun c _ => ?_
    rw [refIdx_row, refIdx_bin, ho]
    exact if_congr ⟨fun h => (hbin _).1 h.2, fun h => ⟨(hrow R).2 rfl, (hbin _).2 h⟩⟩ rfl rfl
  · intro e1 _ hne
    refine Finset.sum_eq_zero fun e2 _ => if_neg fun h => hne ?_
    rw [refIdx_row] at h
    exact (hrow e1).1 h.1
  · intro h; exact absurd (Finset.mem_univ R) h

end Cert.ReferenceIdeal.RefValue

end
-- ==== Proof.lean ====
/-
  The proof of `Cert.Claim`: a per-row 30-bin histogram of x : f32[4096, 16384].

  Both programs bin every entry the same way — bin = trunc (min 28 (max (-1) ⌊(x + 6) / w⌋)) + 1, with the same
  literal words, a 32-bit integer that always lies in [0, 29] — and count, for each row R and bin b, the entries of
  the row whose bin is b (`Cert.Hist.hist`, Proof/Spec.lean); both then permute the 30 columns by one and the same
  gather.

  * The kernel counts with the matrix unit: for each bin a one-hot mask of its 512×2048 input block is multiplied by
    a block of ones into a zero accumulator, column 0 of the product is the count column, and the thirty count
    columns are added into a 512×30 scratch that is zeroed at the first of the eight column tiles of a row tile and
    copied to the output block after the last. Over the extended reals a product with ones into zero is a plain sum
    of zeros and ones, so after the eighth tile the scratch holds, at (r, b), the number of entries of row
    512·q + r whose bin is b, the 16384 columns summed tile by tile (Proof/KBody, KCount, KBlocks, KAcc, KFinal).
  * The reference scatter-adds 1 at (row, bin) for every entry into zeros. A scatter-add over the extended reals is
    the operand plus the sum of the updates that land on the entry; an update lands on (R, b) exactly when its row is
    R and its bin is b (no negative-index wrap happens, the bin being in [0, 29]); so entry (R, b) is the same count
    (Proof/LibScatterPairs, RefRun, RefIdx, RefHist).
  * The two gathers are the same function (Proof/Tail), applied to equal arrays.

  Sums of zeros and ones need no finiteness: the precondition is not used. The ideal pass rewrote nothing, so
  `preserves` is `True`; the three frames are the generated frame certificates and the reference's run.
-/
import proofs.«176800_j81965155877403_2_alg».proof.Defs
import proofs.«176800_j81965155877403_2_alg».proof.Proof.Gen.Kernel
import proofs.«176800_j81965155877403_2_alg».proof.Proof.Gen.Kernel.Frame
import proofs.«176800_j81965155877403_2_alg».proof.Proof.Gen.KernelIdeal
import proofs.«176800_j81965155877403_2_alg».proof.Proof.Gen.KernelIdeal.Frame
import proofs.«176800_j81965155877403_2_alg».proof.Proof.Gen.ReferenceIdeal
import proofs.«176800_j81965155877403_2_alg».proof.Proof.Gen.Pre_finite_inputs
import proofs.«176800_j81965155877403_2_alg».proof.Proof.KFinal
import proofs.«176800_j81965155877403_2_alg».proof.Proof.KRun
import proofs.«176800_j81965155877403_2_alg».proof.Proof.RefHist
import proofs.«176800_j81965155877403_2_alg».proof.Proof.Tail
import Idealize.ShloMosaic.Adequacy
import Idealize.ShloMosaic.Init

noncomputable section

namespace Cert.Proof

open Idealize.ShloMosaic Idealize.SL.Sem

/-- The word-level kernel's frame: the generated frame certificate. -/
theorem frame_k : Cert.frame_Kernel := fun m ρ _ => Cert.Kernel.Gen.frame m ρ

/-- The idealized kernel's frame: the generated frame certificate. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both programs end with the column gather of the same histogram of arguments that agree. -/
theorem algebraic : Cert.algebraic_KernelIdeal_ReferenceIdeal := by
  intro m ρ m' ρ' _ hagree
  refine ⟨fun c => Cert.KernelIdeal.Final.kTail (Cert.Hist.hist (Cert.KernelIdeal.Final.xin m c)),
    Cert.KernelIdeal.Final.run_of m ρ _ (fun c => Cert.KernelIdeal.Final.final m c), ?_⟩
  refine (θ_run Cert.ReferenceIdeal.defs _ _).mono (fun _ h c => ⟨(h c).1.trans ?_, (h c).2⟩)
    (Cert.ReferenceIdeal.RefValue.run m' ρ')
  rw [Cert.ReferenceIdeal.RefValue.refScatter_eq, hagree c]
  exact (Cert.KernelIdeal.Final.kTail_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
